-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25)) (m ((c.tc : Thread Cert.Kernel.nD Cert.Kernel.τ).loc Cert.Kernel.main_arg26)) (m ((c.tc : Thread Cert.Kernel.nD Cert.Kernel.τ).loc Cert.Kernel.main_arg27)) (m ((c.tc : Thread Cert.Kernel.nD Cert.Kernel.τ).loc Cert.Kernel.main_arg28)) (m ((c.tc : Thread Cert.Kernel.nD Cert.Kernel.τ).loc Cert.Kernel.main_arg29)) (m ((c.tc : Thread Cert.Kernel.nD Cert.Kernel.τ).loc Cert.Kernel.main_arg30)) (m ((c.tc : Thread Cert.Kernel.nD Cert.Kernel.τ).loc Cert.Kernel.main_arg31))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27)) (m ((c.tc : Thread Cert.KernelIdeal.nD Cert.KernelIdeal.τ).loc Cert.KernelIdeal.main_arg28)) (m ((c.tc : Thread Cert.KernelIdeal.nD Cert.KernelIdeal.τ).loc Cert.KernelIdeal.main_arg29)) (m ((c.tc : Thread Cert.KernelIdeal.nD Cert.KernelIdeal.τ).loc Cert.KernelIdeal.main_arg30)) (m ((c.tc : Thread Cert.KernelIdeal.nD Cert.KernelIdeal.τ).loc Cert.KernelIdeal.main_arg31))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27)) (m ((c.tc : Thread Cert.ReferenceIdeal.nD Cert.ReferenceIdeal.τ).loc Cert.ReferenceIdeal.main_arg28)) (m ((c.tc : Thread Cert.ReferenceIdeal.nD Cert.ReferenceIdeal.τ).loc Cert.ReferenceIdeal.main_arg29)) (m ((c.tc : Thread Cert.ReferenceIdeal.nD Cert.ReferenceIdeal.τ).loc Cert.ReferenceIdeal.main_arg30)) (m ((c.tc : Thread Cert.ReferenceIdeal.nD Cert.ReferenceIdeal.τ).loc Cert.ReferenceIdeal.main_arg31))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25)
      ∧ r.2.mem ((c.tc : Thread Cert.Kernel.nD Cert.Kernel.τ).loc Cert.Kernel.main_arg26) = m ((c.tc : Thread Cert.Kernel.nD Cert.Kernel.τ).loc Cert.Kernel.main_arg26)
      ∧ r.2.mem ((c.tc : Thread Cert.Kernel.nD Cert.Kernel.τ).loc Cert.Kernel.main_arg27) = m ((c.tc : Thread Cert.Kernel.nD Cert.Kernel.τ).loc Cert.Kernel.main_arg27)
      ∧ r.2.mem ((c.tc : Thread Cert.Kernel.nD Cert.Kernel.τ).loc Cert.Kernel.main_arg28) = m ((c.tc : Thread Cert.Kernel.nD Cert.Kernel.τ).loc Cert.Kernel.main_arg28)
      ∧ r.2.mem ((c.tc : Thread Cert.Kernel.nD Cert.Kernel.τ).loc Cert.Kernel.main_arg29) = m ((c.tc : Thread Cert.Kernel.nD Cert.Kernel.τ).loc Cert.Kernel.main_arg29)
      ∧ r.2.mem ((c.tc : Thread Cert.Kernel.nD Cert.Kernel.τ).loc Cert.Kernel.main_arg30) = m ((c.tc : Thread Cert.Kernel.nD Cert.Kernel.τ).loc Cert.Kernel.main_arg30)
      ∧ r.2.mem ((c.tc : Thread Cert.Kernel.nD Cert.Kernel.τ).loc Cert.Kernel.main_arg31) = m ((c.tc : Thread Cert.Kernel.nD Cert.Kernel.τ).loc Cert.Kernel.main_arg31))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
      ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
      ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
      ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29)
      ∧ r.2.mem ((c.tc : Thread Cert.KernelIdeal.nD Cert.KernelIdeal.τ).loc Cert.KernelIdeal.main_arg30) = m ((c.tc : Thread Cert.KernelIdeal.nD Cert.KernelIdeal.τ).loc Cert.KernelIdeal.main_arg30)
      ∧ r.2.mem ((c.tc : Thread Cert.KernelIdeal.nD Cert.KernelIdeal.τ).loc Cert.KernelIdeal.main_arg31) = m ((c.tc : Thread Cert.KernelIdeal.nD Cert.KernelIdeal.τ).loc Cert.KernelIdeal.main_arg31))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26)
      ∧ r.2.mem ((c.tc : Thread Cert.ReferenceIdeal.nD Cert.ReferenceIdeal.τ).loc Cert.ReferenceIdeal.main_arg27) = m ((c.tc : Thread Cert.ReferenceIdeal.nD Cert.ReferenceIdeal.τ).loc Cert.ReferenceIdeal.main_arg27)
      ∧ r.2.mem ((c.tc : Thread Cert.ReferenceIdeal.nD Cert.ReferenceIdeal.τ).loc Cert.ReferenceIdeal.main_arg28) = m ((c.tc : Thread Cert.ReferenceIdeal.nD Cert.ReferenceIdeal.τ).loc Cert.ReferenceIdeal.main_arg28)
      ∧ r.2.mem ((c.tc : Thread Cert.ReferenceIdeal.nD Cert.ReferenceIdeal.τ).loc Cert.ReferenceIdeal.main_arg29) = m ((c.tc : Thread Cert.ReferenceIdeal.nD Cert.ReferenceIdeal.τ).loc Cert.ReferenceIdeal.main_arg29)
      ∧ r.2.mem ((c.tc : Thread Cert.ReferenceIdeal.nD Cert.ReferenceIdeal.τ).loc Cert.ReferenceIdeal.main_arg30) = m ((c.tc : Thread Cert.ReferenceIdeal.nD Cert.ReferenceIdeal.τ).loc Cert.ReferenceIdeal.main_arg30)
      ∧ r.2.mem ((c.tc : Thread Cert.ReferenceIdeal.nD Cert.ReferenceIdeal.τ).loc Cert.ReferenceIdeal.main_arg31) = m ((c.tc : Thread Cert.ReferenceIdeal.nD Cert.ReferenceIdeal.τ).loc Cert.ReferenceIdeal.main_arg31))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)
      ∧ m' ((c.tc : Thread Cert.ReferenceIdeal.nD Cert.ReferenceIdeal.τ).loc Cert.ReferenceIdeal.main_arg27) = m ((c.tc : Thread Cert.KernelIdeal.nD Cert.KernelIdeal.τ).loc Cert.KernelIdeal.main_arg27)
      ∧ m' ((c.tc : Thread Cert.ReferenceIdeal.nD Cert.ReferenceIdeal.τ).loc Cert.ReferenceIdeal.main_arg28) = m ((c.tc : Thread Cert.KernelIdeal.nD Cert.KernelIdeal.τ).loc Cert.KernelIdeal.main_arg28)
      ∧ m' ((c.tc : Thread Cert.ReferenceIdeal.nD Cert.ReferenceIdeal.τ).loc Cert.ReferenceIdeal.main_arg29) = m ((c.tc : Thread Cert.KernelIdeal.nD Cert.KernelIdeal.τ).loc Cert.KernelIdeal.main_arg29)
      ∧ m' ((c.tc : Thread Cert.ReferenceIdeal.nD Cert.ReferenceIdeal.τ).loc Cert.ReferenceIdeal.main_arg30) = m ((c.tc : Thread Cert.KernelIdeal.nD Cert.KernelIdeal.τ).loc Cert.KernelIdeal.main_arg30)
      ∧ m' ((c.tc : Thread Cert.ReferenceIdeal.nD Cert.ReferenceIdeal.τ).loc Cert.ReferenceIdeal.main_arg31) = m ((c.tc : Thread Cert.KernelIdeal.nD Cert.KernelIdeal.τ).loc Cert.KernelIdeal.main_arg31)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
          ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
          ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
          ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
          ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29)
          ∧ r.2.mem ((c.tc : Thread Cert.KernelIdeal.nD Cert.KernelIdeal.τ).loc Cert.KernelIdeal.main_arg30) = m ((c.tc : Thread Cert.KernelIdeal.nD Cert.KernelIdeal.τ).loc Cert.KernelIdeal.main_arg30)
          ∧ r.2.mem ((c.tc : Thread Cert.KernelIdeal.nD Cert.KernelIdeal.τ).loc Cert.KernelIdeal.main_arg31) = m ((c.tc : Thread Cert.KernelIdeal.nD Cert.KernelIdeal.τ).loc Cert.KernelIdeal.main_arg31))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v45) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25)
          ∧ r.2.mem ((c.tc : Thread Cert.ReferenceIdeal.nD Cert.ReferenceIdeal.τ).loc Cert.ReferenceIdeal.main_arg26) = m' ((c.tc : Thread Cert.ReferenceIdeal.nD Cert.ReferenceIdeal.τ).loc Cert.ReferenceIdeal.main_arg26)
          ∧ r.2.mem ((c.tc : Thread Cert.ReferenceIdeal.nD Cert.ReferenceIdeal.τ).loc Cert.ReferenceIdeal.main_arg27) = m' ((c.tc : Thread Cert.ReferenceIdeal.nD Cert.ReferenceIdeal.τ).loc Cert.ReferenceIdeal.main_arg27)
          ∧ r.2.mem ((c.tc : Thread Cert.ReferenceIdeal.nD Cert.ReferenceIdeal.τ).loc Cert.ReferenceIdeal.main_arg28) = m' ((c.tc : Thread Cert.ReferenceIdeal.nD Cert.ReferenceIdeal.τ).loc Cert.ReferenceIdeal.main_arg28)
          ∧ r.2.mem ((c.tc : Thread Cert.ReferenceIdeal.nD Cert.ReferenceIdeal.τ).loc Cert.ReferenceIdeal.main_arg29) = m' ((c.tc : Thread Cert.ReferenceIdeal.nD Cert.ReferenceIdeal.τ).loc Cert.ReferenceIdeal.main_arg29)
          ∧ r.2.mem ((c.tc : Thread Cert.ReferenceIdeal.nD Cert.ReferenceIdeal.τ).loc Cert.ReferenceIdeal.main_arg30) = m' ((c.tc : Thread Cert.ReferenceIdeal.nD Cert.ReferenceIdeal.τ).loc Cert.ReferenceIdeal.main_arg30)
          ∧ r.2.mem ((c.tc : Thread Cert.ReferenceIdeal.nD Cert.ReferenceIdeal.τ).loc Cert.ReferenceIdeal.main_arg31) = m' ((c.tc : Thread Cert.ReferenceIdeal.nD Cert.ReferenceIdeal.τ).loc Cert.ReferenceIdeal.main_arg31))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S262144x40 : Shape := ⟨2, ![262144, 40]⟩
abbrev S262144x20 : Shape := ⟨2, ![262144, 20]⟩
abbrev S48x40 : Shape := ⟨2, ![48, 40]⟩
abbrev S48 : Shape := ⟨1, ![48]⟩
abbrev S48x20 : Shape := ⟨2, ![48, 20]⟩
abbrev S24x40 : Shape := ⟨2, ![24, 40]⟩
abbrev S24 : Shape := ⟨1, ![24]⟩
abbrev S24x20 : Shape := ⟨2, ![24, 20]⟩
abbrev S48x144 : Shape := ⟨2, ![48, 144]⟩
abbrev S48x48 : Shape := ⟨2, ![48, 48]⟩
abbrev S48x96 : Shape := ⟨2, ![48, 96]⟩
abbrev S_ : Shape := ⟨0, ![]⟩

class Facts : Prop where
  bcast_S_S262144x40 : S_.BroadcastsInDim S262144x40 (![] : Fin 0 → Fin S262144x40.rank)
  reducesTo_S262144x40_S_d0_1 : S262144x40.ReducesTo [0, 1] S_
  h_S_ : 0 < S_.numel
  bcast_S_S262144x20 : S_.BroadcastsInDim S262144x20 (![] : Fin 0 → Fin S262144x20.rank)
  reducesTo_S262144x20_S_d0_1 : S262144x20.ReducesTo [0, 1] S_
  bcast_S_S48x40 : S_.BroadcastsInDim S48x40 (![] : Fin 0 → Fin S48x40.rank)
  reducesTo_S48x40_S_d0_1 : S48x40.ReducesTo [0, 1] S_
  bcast_S_S48 : S_.BroadcastsInDim S48 (![] : Fin 0 → Fin S48.rank)
  reducesTo_S48_S_d0 : S48.ReducesTo [0] S_
  bcast_S_S48x20 : S_.BroadcastsInDim S48x20 (![] : Fin 0 → Fin S48x20.rank)
  reducesTo_S48x20_S_d0_1 : S48x20.ReducesTo [0, 1] S_
  bcast_S_S24x40 : S_.BroadcastsInDim S24x40 (![] : Fin 0 → Fin S24x40.rank)
  reducesTo_S24x40_S_d0_1 : S24x40.ReducesTo [0, 1] S_
  bcast_S_S24 : S_.BroadcastsInDim S24 (![] : Fin 0 → Fin S24.rank)
  reducesTo_S24_S_d0 : S24.ReducesTo [0] S_
  bcast_S_S24x20 : S_.BroadcastsInDim S24x20 (![] : Fin 0 → Fin S24x20.rank)
  reducesTo_S24x20_S_d0_1 : S24x20.ReducesTo [0, 1] S_
  bcast_S_S48x144 : S_.BroadcastsInDim S48x144 (![] : Fin 0 → Fin S48x144.rank)
  reducesTo_S48x144_S_d0_1 : S48x144.ReducesTo [0, 1] S_
  bcast_S_S48x48 : S_.BroadcastsInDim S48x48 (![] : Fin 0 → Fin S48x48.rank)
  reducesTo_S48x48_S_d0_1 : S48x48.ReducesTo [0, 1] S_
  bcast_S_S48x96 : S_.BroadcastsInDim S48x96 (![] : Fin 0 → Fin S48x96.rank)
  reducesTo_S48x96_S_d0_1 : S48x96.ReducesTo [0, 1] S_

variable [Facts]

def fn_part9 {F : FTy → Type} [FloatOps F] (main_arg31 : FVec F S48 .f32) (main_v153 : IVec S_ 1) : IVec S_ 1 :=
  let main_v154 : FVec F S48 .f32 := Host.absf main_arg31
  let main_cst_60 : FVec F S_ .f32 := constant S_ .f32 0x7F800000#32
  let main_v155 : FVec F S48 .f32 := broadcastInDim S48 ![] bcast_S_S48 main_cst_60
  let main_v156 : IVec S48 1 := cmpf .olt main_v154 main_v155
  let main_c_61 : IVec S_ 1 := constantI S_ 1 1#1
  let main_v157 : IVec S_ 1 := (fun x v => Host.reduce IntOp.andi x v reducesTo_S48_S_d0 h_S_) main_v156 main_c_61
  let main_v158 : IVec S_ 1 := andi main_v153 main_v157
  main_v158

def fn_part8 {F : FTy → Type} [FloatOps F] (main_arg28 : FVec F S48x48 .f32) (main_arg29 : FVec F S48 .f32) (main_arg30 : FVec F S48x96 .f32) (main_arg31 : FVec F S48 .f32) (main_v133 : IVec S_ 1) (main_v136 : IVec S48 1) : IVec S_ 1 :=
  let main_c_53 : IVec S_ 1 := constantI S_ 1 1#1
  let main_v137 : IVec S_ 1 := (fun x v => Host.reduce IntOp.andi x v reducesTo_S48_S_d0 h_S_) main_v136 main_c_53
  let main_v138 : IVec S_ 1 := andi main_v133 main_v137
  let main_v139 : FVec F S48x48 .f32 := Host.absf main_arg28
  let main_cst_54 : FVec F S_ .f32 := constant S_ .f32 0x7F800000#32
  let main_v140 : FVec F S48x48 .f32 := broadcastInDim S48x48 ![] bcast_S_S48x48 main_cst_54
  let main_v141 : IVec S48x48 1 := cmpf .olt main_v139 main_v140
  let main_c_55 : IVec S_ 1 := constantI S_ 1 1#1
  let main_v142 : IVec S_ 1 := (fun x v => Host.reduce IntOp.andi x v reducesTo_S48x48_S_d0_1 h_S_) main_v141 main_c_55
  let main_v143 : IVec S_ 1 := andi main_v138 main_v142
  let main_v144 : FVec F S48 .f32 := Host.absf main_arg29
  let main_cst_56 : FVec F S_ .f32 := constant S_ .f32 0x7F800000#32
  let main_v145 : FVec F S48 .f32 := broadcastInDim S48 ![] bcast_S_S48 main_cst_56
  let main_v146 : IVec S48 1 := cmpf .olt main_v144 main_v145
  let main_c_57 : IVec S_ 1 := constantI S_ 1 1#1
  let main_v147 : IVec S_ 1 := (fun x v => Host.reduce IntOp.andi x v reducesTo_S48_S_d0 h_S_) main_v146 main_c_57
  let main_v148 : IVec S_ 1 := andi main_v143 main_v147
  let main_v149 : FVec F S48x96 .f32 := Host.absf main_arg30
  let main_cst_58 : FVec F S_ .f32 := constant S_ .f32 0x7F800000#32
  let main_v150 : FVec F S48x96 .f32 := broadcastInDim S48x96 ![] bcast_S_S48x96 main_cst_58
  let main_v151 : IVec S48x96 1 := cmpf .olt main_v149 main_v150
  let main_c_59 : IVec S_ 1 := constantI S_ 1 1#1
  let main_v152 : IVec S_ 1 := (fun x v => Host.reduce IntOp.andi x v reducesTo_S48x96_S_d0_1 h_S_) main_v151 main_c_59
  let main_v153 : IVec S_ 1 := andi main_v148 main_v152
  fn_part9 (F := F) main_arg31 main_v153

def fn_part7 {F : FTy → Type} [FloatOps F] (main_arg25 : FVec F S24 .f32) (main_arg26 : FVec F S48x144 .f32) (main_arg27 : FVec F S48 .f32) (main_arg28 : FVec F S48x48 .f32) (main_arg29 : FVec F S48 .f32) (main_arg30 : FVec F S48x96 .f32) (main_arg31 : FVec F S48 .f32) (main_v118 : IVec S_ 1) (main_v119 : FVec F S24x20 .f32) : IVec S_ 1 :=
  let main_cst_46 : FVec F S_ .f32 := constant S_ .f32 0x7F800000#32
  let main_v120 : FVec F S24x20 .f32 := broadcastInDim S24x20 ![] bcast_S_S24x20 main_cst_46
  let main_v121 : IVec S24x20 1 := cmpf .olt main_v119 main_v120
  let main_c_47 : IVec S_ 1 := constantI S_ 1 1#1
  let main_v122 : IVec S_ 1 := (fun x v => Host.reduce IntOp.andi x v reducesTo_S24x20_S_d0_1 h_S_) main_v121 main_c_47
  let main_v123 : IVec S_ 1 := andi main_v118 main_v122
  let main_v124 : FVec F S24 .f32 := Host.absf main_arg25
  let main_cst_48 : FVec F S_ .f32 := constant S_ .f32 0x7F800000#32
  let main_v125 : FVec F S24 .f32 := broadcastInDim S24 ![] bcast_S_S24 main_cst_48
  let main_v126 : IVec S24 1 := cmpf .olt main_v124 main_v125
  let main_c_49 : IVec S_ 1 := constantI S_ 1 1#1
  let main_v127 : IVec S_ 1 := (fun x v => Host.reduce IntOp.andi x v reducesTo_S24_S_d0 h_S_) main_v126 main_c_49
  let main_v128 : IVec S_ 1 := andi main_v123 main_v127
  let main_v129 : FVec F S48x144 .f32 := Host.absf main_arg26
  let main_cst_50 : FVec F S_ .f32 := constant S_ .f32 0x7F800000#32
  let main_v130 : FVec F S48x144 .f32 := broadcastInDim S48x144 ![] bcast_S_S48x144 main_cst_50
  let main_v131 : IVec S48x144 1 := cmpf .olt main_v129 main_v130
  let main_c_51 : IVec S_ 1 := constantI S_ 1 1#1
  let main_v132 : IVec S_ 1 := (fun x v => Host.reduce IntOp.andi x v reducesTo_S48x144_S_d0_1 h_S_) main_v131 main_c_51
  let main_v133 : IVec S_ 1 := andi main_v128 main_v132
  let main_v134 : FVec F S48 .f32 := Host.absf main_arg27
  let main_cst_52 : FVec F S_ .f32 := constant S_ .f32 0x7F800000#32
  let main_v135 : FVec F S48 .f32 := broadcastInDim S48 ![] bcast_S_S48 main_cst_52
  let main_v136 : IVec S48 1 := cmpf .olt main_v134 main_v135
  fn_part8 (F := F) main_arg28 main_arg29 main_arg30 main_arg31 main_v133 main_v136

def fn_part6 {F : FTy → Type} [FloatOps F] (main_arg21 : FVec F S24 .f32) (main_arg22 : FVec F S24x20 .f32) (main_arg23 : FVec F S24 .f32) (main_arg24 : FVec F S24x20 .f32) (main_arg25 : FVec F S24 .f32) (main_arg26 : FVec F S48x144 .f32) (main_arg27 : FVec F S48 .f32) (main_arg28 : FVec F S48x48 .f32) (main_arg29 : FVec F S48 .f32) (main_arg30 : FVec F S48x96 .f32) (main_arg31 : FVec F S48 .f32) (main_v98 : IVec S_ 1) (main_v101 : IVec S24x20 1) (main_c_39 : IVec S_ 1) : IVec S_ 1 :=
  let main_v102 : IVec S_ 1 := (fun x v => Host.reduce IntOp.andi x v reducesTo_S24x20_S_d0_1 h_S_) main_v101 main_c_39
  let main_v103 : IVec S_ 1 := andi main_v98 main_v102
  let main_v104 : FVec F S24 .f32 := Host.absf main_arg21
  let main_cst_40 : FVec F S_ .f32 := constant S_ .f32 0x7F800000#32
  let main_v105 : FVec F S24 .f32 := broadcastInDim S24 ![] bcast_S_S24 main_cst_40
  let main_v106 : IVec S24 1 := cmpf .olt main_v104 main_v105
  let main_c_41 : IVec S_ 1 := constantI S_ 1 1#1
  let main_v107 : IVec S_ 1 := (fun x v => Host.reduce IntOp.andi x v reducesTo_S24_S_d0 h_S_) main_v106 main_c_41
  let main_v108 : IVec S_ 1 := andi main_v103 main_v107
  let main_v109 : FVec F S24x20 .f32 := Host.absf main_arg22
  let main_cst_42 : FVec F S_ .f32 := constant S_ .f32 0x7F800000#32
  let main_v110 : FVec F S24x20 .f32 := broadcastInDim S24x20 ![] bcast_S_S24x20 main_cst_42
  let main_v111 : IVec S24x20 1 := cmpf .olt main_v109 main_v110
  let main_c_43 : IVec S_ 1 := constantI S_ 1 1#1
  let main_v112 : IVec S_ 1 := (fun x v => Host.reduce IntOp.andi x v reducesTo_S24x20_S_d0_1 h_S_) main_v111 main_c_43
  let main_v113 : IVec S_ 1 := andi main_v108 main_v112
  let main_v114 : FVec F S24 .f32 := Host.absf main_arg23
  let main_cst_44 : FVec F S_ .f32 := constant S_ .f32 0x7F800000#32
  let main_v115 : FVec F S24 .f32 := broadcastInDim S24 ![] bcast_S_S24 main_cst_44
  let main_v116 : IVec S24 1 := cmpf .olt main_v114 main_v115
  let main_c_45 : IVec S_ 1 := constantI S_ 1 1#1
  let main_v117 : IVec S_ 1 := (fun x v => Host.reduce IntOp.andi x v reducesTo_S24_S_d0 h_S_) main_v116 main_c_45
  let main_v118 : IVec S_ 1 := andi main_v113 main_v117
  let main_v119 : FVec F S24x20 .f32 := Host.absf main_arg24
  fn_part7 (F := F) main_arg25 main_arg26 main_arg27 main_arg28 main_arg29 main_arg30 main_arg31 main_v118 main_v119

def fn_part5 {F : FTy → Type} [FloatOps F] (main_arg18 : FVec F S24x40 .f32) (main_arg19 : FVec F S24 .f32) (main_arg20 : FVec F S24x20 .f32) (main_arg21 : FVec F S24 .f32) (main_arg22 : FVec F S24x20 .f32) (main_arg23 : FVec F S24 .f32) (main_arg24 : FVec F S24x20 .f32) (main_arg25 : FVec F S24 .f32) (main_arg26 : FVec F S48x144 .f32) (main_arg27 : FVec F S48 .f32) (main_arg28 : FVec F S48x48 .f32) (main_arg29 : FVec F S48 .f32) (main_arg30 : FVec F S48x96 .f32) (main_arg31 : FVec F S48 .f32) (main_v83 : IVec S_ 1) (main_v84 : FVec F S24 .f32) (main_cst_32 : FVec F S_ .f32) : IVec S_ 1 :=
  let main_v85 : FVec F S24 .f32 := broadcastInDim S24 ![] bcast_S_S24 main_cst_32
  let main_v86 : IVec S24 1 := cmpf .olt main_v84 main_v85
  let main_c_33 : IVec S_ 1 := constantI S_ 1 1#1
  let main_v87 : IVec S_ 1 := (fun x v => Host.reduce IntOp.andi x v reducesTo_S24_S_d0 h_S_) main_v86 main_c_33
  let main_v88 : IVec S_ 1 := andi main_v83 main_v87
  let main_v89 : FVec F S24x40 .f32 := Host.absf main_arg18
  let main_cst_34 : FVec F S_ .f32 := constant S_ .f32 0x7F800000#32
  let main_v90 : FVec F S24x40 .f32 := broadcastInDim S24x40 ![] bcast_S_S24x40 main_cst_34
  let main_v91 : IVec S24x40 1 := cmpf .olt main_v89 main_v90
  let main_c_35 : IVec S_ 1 := constantI S_ 1 1#1
  let main_v92 : IVec S_ 1 := (fun x v => Host.reduce IntOp.andi x v reducesTo_S24x40_S_d0_1 h_S_) main_v91 main_c_35
  let main_v93 : IVec S_ 1 := andi main_v88 main_v92
  let main_v94 : FVec F S24 .f32 := Host.absf main_arg19
  let main_cst_36 : FVec F S_ .f32 := constant S_ .f32 0x7F800000#32
  let main_v95 : FVec F S24 .f32 := broadcastInDim S24 ![] bcast_S_S24 main_cst_36
  let main_v96 : IVec S24 1 := cmpf .olt main_v94 main_v95
  let main_c_37 : IVec S_ 1 := constantI S_ 1 1#1
  let main_v97 : IVec S_ 1 := (fun x v => Host.reduce IntOp.andi x v reducesTo_S24_S_d0 h_S_) main_v96 main_c_37
  let main_v98 : IVec S_ 1 := andi main_v93 main_v97
  let main_v99 : FVec F S24x20 .f32 := Host.absf main_arg20
  let main_cst_38 : FVec F S_ .f32 := constant S_ .f32 0x7F800000#32
  let main_v100 : FVec F S24x20 .f32 := broadcastInDim S24x20 ![] bcast_S_S24x20 main_cst_38
  let main_v101 : IVec S24x20 1 := cmpf .olt main_v99 main_v100
  let main_c_39 : IVec S_ 1 := constantI S_ 1 1#1
  fn_part6 (F := F) main_arg21 main_arg22 main_arg23 main_arg24 main_arg25 main_arg26 main_arg27 main_arg28 main_arg29 main_arg30 main_arg31 main_v98 main_v101 main_c_39

def fn_part4 {F : FTy → Type} [FloatOps F] (main_arg14 : FVec F S24x40 .f32) (main_arg15 : FVec F S24 .f32) (main_arg16 : FVec F S24x40 .f32) (main_arg17 : FVec F S24 .f32) (main_arg18 : FVec F S24x40 .f32) (main_arg19 : FVec F S24 .f32) (main_arg20 : FVec F S24x20 .f32) (main_arg21 : FVec F S24 .f32) (main_arg22 : FVec F S24x20 .f32) (main_arg23 : FVec F S24 .f32) (main_arg24 : FVec F S24x20 .f32) (main_arg25 : FVec F S24 .f32) (main_arg26 : FVec F S48x144 .f32) (main_arg27 : FVec F S48 .f32) (main_arg28 : FVec F S48x48 .f32) (main_arg29 : FVec F S48 .f32) (main_arg30 : FVec F S48x96 .f32) (main_arg31 : FVec F S48 .f32) (main_v63 : IVec S_ 1) (main_v67 : IVec S_ 1) : IVec S_ 1 :=
  let main_v68 : IVec S_ 1 := andi main_v63 main_v67
  let main_v69 : FVec F S24x40 .f32 := Host.absf main_arg14
  let main_cst_26 : FVec F S_ .f32 := constant S_ .f32 0x7F800000#32
  let main_v70 : FVec F S24x40 .f32 := broadcastInDim S24x40 ![] bcast_S_S24x40 main_cst_26
  let main_v71 : IVec S24x40 1 := cmpf .olt main_v69 main_v70
  let main_c_27 : IVec S_ 1 := constantI S_ 1 1#1
  let main_v72 : IVec S_ 1 := (fun x v => Host.reduce IntOp.andi x v reducesTo_S24x40_S_d0_1 h_S_) main_v71 main_c_27
  let main_v73 : IVec S_ 1 := andi main_v68 main_v72
  let main_v74 : FVec F S24 .f32 := Host.absf main_arg15
  let main_cst_28 : FVec F S_ .f32 := constant S_ .f32 0x7F800000#32
  let main_v75 : FVec F S24 .f32 := broadcastInDim S24 ![] bcast_S_S24 main_cst_28
  let main_v76 : IVec S24 1 := cmpf .olt main_v74 main_v75
  let main_c_29 : IVec S_ 1 := constantI S_ 1 1#1
  let main_v77 : IVec S_ 1 := (fun x v => Host.reduce IntOp.andi x v reducesTo_S24_S_d0 h_S_) main_v76 main_c_29
  let main_v78 : IVec S_ 1 := andi main_v73 main_v77
  let main_v79 : FVec F S24x40 .f32 := Host.absf main_arg16
  let main_cst_30 : FVec F S_ .f32 := constant S_ .f32 0x7F800000#32
  let main_v80 : FVec F S24x40 .f32 := broadcastInDim S24x40 ![] bcast_S_S24x40 main_cst_30
  let main_v81 : IVec S24x40 1 := cmpf .olt main_v79 main_v80
  let main_c_31 : IVec S_ 1 := constantI S_ 1 1#1
  let main_v82 : IVec S_ 1 := (fun x v => Host.reduce IntOp.andi x v reducesTo_S24x40_S_d0_1 h_S_) main_v81 main_c_31
  let main_v83 : IVec S_ 1 := andi main_v78 main_v82
  let main_v84 : FVec F S24 .f32 := Host.absf main_arg17
  let main_cst_32 : FVec F S_ .f32 := constant S_ .f32 0x7F800000#32
  fn_part5 (F := F) main_arg18 main_arg19 main_arg20 main_arg21 main_arg22 main_arg23 main_arg24 main_arg25 main_arg26 main_arg27 main_arg28 main_arg29 main_arg30 main_arg31 main_v83 main_v84 main_cst_32

def fn_part3 {F : FTy → Type} [FloatOps F] (main_arg11 : FVec F S48 .f32) (main_arg12 : FVec F S48x40 .f32) (main_arg13 : FVec F S48 .f32) (main_arg14 : FVec F S24x40 .f32) (main_arg15 : FVec F S24 .f32) (main_arg16 : FVec F S24x40 .f32) (main_arg17 : FVec F S24 .f32) (main_arg18 : FVec F S24x40 .f32) (main_arg19 : FVec F S24 .f32) (main_arg20 : FVec F S24x20 .f32) (main_arg21 : FVec F S24 .f32) (main_arg22 : FVec F S24x20 .f32) (main_arg23 : FVec F S24 .f32) (main_arg24 : FVec F S24x20 .f32) (main_arg25 : FVec F S24 .f32) (main_arg26 : FVec F S48x144 .f32) (main_arg27 : FVec F S48 .f32) (main_arg28 : FVec F S48x48 .f32) (main_arg29 : FVec F S48 .f32) (main_arg30 : FVec F S48x96 .f32) (main_arg31 : FVec F S48 .f32) (main_v48 : IVec S_ 1) (main_v49 : FVec F S48x40 .f32) (main_v50 : FVec F S48x40 .f32) : IVec S_ 1 :=
  let main_v51 : IVec S48x40 1 := cmpf .olt main_v49 main_v50
  let main_c_19 : IVec S_ 1 := constantI S_ 1 1#1
  let main_v52 : IVec S_ 1 := (fun x v => Host.reduce IntOp.andi x v reducesTo_S48x40_S_d0_1 h_S_) main_v51 main_c_19
  let main_v53 : IVec S_ 1 := andi main_v48 main_v52
  let main_v54 : FVec F S48 .f32 := Host.absf main_arg11
  let main_cst_20 : FVec F S_ .f32 := constant S_ .f32 0x7F800000#32
  let main_v55 : FVec F S48 .f32 := broadcastInDim S48 ![] bcast_S_S48 main_cst_20
  let main_v56 : IVec S48 1 := cmpf .olt main_v54 main_v55
  let main_c_21 : IVec S_ 1 := constantI S_ 1 1#1
  let main_v57 : IVec S_ 1 := (fun x v => Host.reduce IntOp.andi x v reducesTo_S48_S_d0 h_S_) main_v56 main_c_21
  let main_v58 : IVec S_ 1 := andi main_v53 main_v57
  let main_v59 : FVec F S48x40 .f32 := Host.absf main_arg12
  let main_cst_22 : FVec F S_ .f32 := constant S_ .f32 0x7F800000#32
  let main_v60 : FVec F S48x40 .f32 := broadcastInDim S48x40 ![] bcast_S_S48x40 main_cst_22
  let main_v61 : IVec S48x40 1 := cmpf .olt main_v59 main_v60
  let main_c_23 : IVec S_ 1 := constantI S_ 1 1#1
  let main_v62 : IVec S_ 1 := (fun x v => Host.reduce IntOp.andi x v reducesTo_S48x40_S_d0_1 h_S_) main_v61 main_c_23
  let main_v63 : IVec S_ 1 := andi main_v58 main_v62
  let main_v64 : FVec F S48 .f32 := Host.absf main_arg13
  let main_cst_24 : FVec F S_ .f32 := constant S_ .f32 0x7F800000#32
  let main_v65 : FVec F S48 .f32 := broadcastInDim S48 ![] bcast_S_S48 main_cst_24
  let main_v66 : IVec S48 1 := cmpf .olt main_v64 main_v65
  let main_c_25 : IVec S_ 1 := constantI S_ 1 1#1
  let main_v67 : IVec S_ 1 := (fun x v => Host.reduce IntOp.andi x v reducesTo_S48_S_d0 h_S_) main_v66 main_c_25
  fn_part4 (F := F) main_arg14 main_arg15 main_arg16 main_arg17 main_arg18 main_arg19 main_arg20 main_arg21 main_arg22 main_arg23 main_arg24 main_arg25 main_arg26 main_arg27 main_arg28 main_arg29 main_arg30 main_arg31 main_v63 main_v67

def fn_part2 {F : FTy → Type} [FloatOps F] (main_arg7 : FVec F S48 .f32) (main_arg8 : FVec F S48x20 .f32) (main_arg9 : FVec F S48 .f32) (main_arg10 : FVec F S48x40 .f32) (main_arg11 : FVec F S48 .f32) (main_arg12 : FVec F S48x40 .f32) (main_arg13 : FVec F S48 .f32) (main_arg14 : FVec F S24x40 .f32) (main_arg15 : FVec F S24 .f32) (main_arg16 : FVec F S24x40 .f32) (main_arg17 : FVec F S24 .f32) (main_arg18 : FVec F S24x40 .f32) (main_arg19 : FVec F S24 .f32) (main_arg20 : FVec F S24x20 .f32) (main_arg21 : FVec F S24 .f32) (main_arg22 : FVec F S24x20 .f32) (main_arg23 : FVec F S24 .f32) (main_arg24 : FVec F S24x20 .f32) (main_arg25 : FVec F S24 .f32) (main_arg26 : FVec F S48x144 .f32) (main_arg27 : FVec F S48 .f32) (main_arg28 : FVec F S48x48 .f32) (main_arg29 : FVec F S48 .f32) (main_arg30 : FVec F S48x96 .f32) (main_arg31 : FVec F S48 .f32) (main_v33 : IVec S_ 1) : IVec S_ 1 :=
  let main_v34 : FVec F S48 .f32 := Host.absf main_arg7
  let main_cst_12 : FVec F S_ .f32 := constant S_ .f32 0x7F800000#32
  let main_v35 : FVec F S48 .f32 := broadcastInDim S48 ![] bcast_S_S48 main_cst_12
  let main_v36 : IVec S48 1 := cmpf .olt main_v34 main_v35
  let main_c_13 : IVec S_ 1 := constantI S_ 1 1#1
  let main_v37 : IVec S_ 1 := (fun x v => Host.reduce IntOp.andi x v reducesTo_S48_S_d0 h_S_) main_v36 main_c_13
  let main_v38 : IVec S_ 1 := andi main_v33 main_v37
  let main_v39 : FVec F S48x20 .f32 := Host.absf main_arg8
  let main_cst_14 : FVec F S_ .f32 := constant S_ .f32 0x7F800000#32
  let main_v40 : FVec F S48x20 .f32 := broadcastInDim S48x20 ![] bcast_S_S48x20 main_cst_14
  let main_v41 : IVec S48x20 1 := cmpf .olt main_v39 main_v40
  let main_c_15 : IVec S_ 1 := constantI S_ 1 1#1
  let main_v42 : IVec S_ 1 := (fun x v => Host.reduce IntOp.andi x v reducesTo_S48x20_S_d0_1 h_S_) main_v41 main_c_15
  let main_v43 : IVec S_ 1 := andi main_v38 main_v42
  let main_v44 : FVec F S48 .f32 := Host.absf main_arg9
  let main_cst_16 : FVec F S_ .f32 := constant S_ .f32 0x7F800000#32
  let main_v45 : FVec F S48 .f32 := broadcastInDim S48 ![] bcast_S_S48 main_cst_16
  let main_v46 : IVec S48 1 := cmpf .olt main_v44 main_v45
  let main_c_17 : IVec S_ 1 := constantI S_ 1 1#1
  let main_v47 : IVec S_ 1 := (fun x v => Host.reduce IntOp.andi x v reducesTo_S48_S_d0 h_S_) main_v46 main_c_17
  let main_v48 : IVec S_ 1 := andi main_v43 main_v47
  let main_v49 : FVec F S48x40 .f32 := Host.absf main_arg10
  let main_cst_18 : FVec F S_ .f32 := constant S_ .f32 0x7F800000#32
  let main_v50 : FVec F S48x40 .f32 := broadcastInDim S48x40 ![] bcast_S_S48x40 main_cst_18
  fn_part3 (F := F) main_arg11 main_arg12 main_arg13 main_arg14 main_arg15 main_arg16 main_arg17 main_arg18 main_arg19 main_arg20 main_arg21 main_arg22 main_arg23 main_arg24 main_arg25 main_arg26 main_arg27 main_arg28 main_arg29 main_arg30 main_arg31 main_v48 main_v49 main_v50

def fn_part1 {F : FTy → Type} [FloatOps F] (main_arg4 : FVec F S48x20 .f32) (main_arg5 : FVec F S48 .f32) (main_arg6 : FVec F S48x20 .f32) (main_arg7 : FVec F S48 .f32) (main_arg8 : FVec F S48x20 .f32) (main_arg9 : FVec F S48 .f32) (main_arg10 : FVec F S48x40 .f32) (main_arg11 : FVec F S48 .f32) (main_arg12 : FVec F S48x40 .f32) (main_arg13 : FVec F S48 .f32) (main_arg14 : FVec F S24x40 .f32) (main_arg15 : FVec F S24 .f32) (main_arg16 : FVec F S24x40 .f32) (main_arg17 : FVec F S24 .f32) (main_arg18 : FVec F S24x40 .f32) (main_arg19 : FVec F S24 .f32) (main_arg20 : FVec F S24x20 .f32) (main_arg21 : FVec F S24 .f32) (main_arg22 : FVec F S24x20 .f32) (main_arg23 : FVec F S24 .f32) (main_arg24 : FVec F S24x20 .f32) (main_arg25 : FVec F S24 .f32) (main_arg26 : FVec F S48x144 .f32) (main_arg27 : FVec F S48 .f32) (main_arg28 : FVec F S48x48 .f32) (main_arg29 : FVec F S48 .f32) (main_arg30 : FVec F S48x96 .f32) (main_arg31 : FVec F S48 .f32) (main_v13 : IVec S_ 1) (main_v16 : IVec S48 1) : IVec S_ 1 :=
  let main_c_5 : IVec S_ 1 := constantI S_ 1 1#1
  let main_v17 : IVec S_ 1 := (fun x v => Host.reduce IntOp.andi x v reducesTo_S48_S_d0 h_S_) main_v16 main_c_5
  let main_v18 : IVec S_ 1 := andi main_v13 main_v17
  let main_v19 : FVec F S48x20 .f32 := Host.absf main_arg4
  let main_cst_6 : FVec F S_ .f32 := constant S_ .f32 0x7F800000#32
  let main_v20 : FVec F S48x20 .f32 := broadcastInDim S48x20 ![] bcast_S_S48x20 main_cst_6
  let main_v21 : IVec S48x20 1 := cmpf .olt main_v19 main_v20
  let main_c_7 : IVec S_ 1 := constantI S_ 1 1#1
  let main_v22 : IVec S_ 1 := (fun x v => Host.reduce IntOp.andi x v reducesTo_S48x20_S_d0_1 h_S_) main_v21 main_c_7
  let main_v23 : IVec S_ 1 := andi main_v18 main_v22
  let main_v24 : FVec F S48 .f32 := Host.absf main_arg5
  let main_cst_8 : FVec F S_ .f32 := constant S_ .f32 0x7F800000#32
  let main_v25 : FVec F S48 .f32 := broadcastInDim S48 ![] bcast_S_S48 main_cst_8
  let main_v26 : IVec S48 1 := cmpf .olt main_v24 main_v25
  let main_c_9 : IVec S_ 1 := constantI S_ 1 1#1
  let main_v27 : IVec S_ 1 := (fun x v => Host.reduce IntOp.andi x v reducesTo_S48_S_d0 h_S_) main_v26 main_c_9
  let main_v28 : IVec S_ 1 := andi main_v23 main_v27
  let main_v29 : FVec F S48x20 .f32 := Host.absf main_arg6
  let main_cst_10 : FVec F S_ .f32 := constant S_ .f32 0x7F800000#32
  let main_v30 : FVec F S48x20 .f32 := broadcastInDim S48x20 ![] bcast_S_S48x20 main_cst_10
  let main_v31 : IVec S48x20 1 := cmpf .olt main_v29 main_v30
  let main_c_11 : IVec S_ 1 := constantI S_ 1 1#1
  let main_v32 : IVec S_ 1 := (fun x v => Host.reduce IntOp.andi x v reducesTo_S48x20_S_d0_1 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_arg19 main_arg20 main_arg21 main_arg22 main_arg23 main_arg24 main_arg25 main_arg26 main_arg27 main_arg28 main_arg29 main_arg30 main_arg31 main_v33

def fn {F : FTy → Type} [FloatOps F] (main_arg0 : FVec F S262144x40 .f32) (main_arg1 : FVec F S262144x20 .f32) (main_arg2 : FVec F S48x40 .f32) (main_arg3 : FVec F S48 .f32) (main_arg4 : FVec F S48x20 .f32) (main_arg5 : FVec F S48 .f32) (main_arg6 : FVec F S48x20 .f32) (main_arg7 : FVec F S48 .f32) (main_arg8 : FVec F S48x20 .f32) (main_arg9 : FVec F S48 .f32) (main_arg10 : FVec F S48x40 .f32) (main_arg11 : FVec F S48 .f32) (main_arg12 : FVec F S48x40 .f32) (main_arg13 : FVec F S48 .f32) (main_arg14 : FVec F S24x40 .f32) (main_arg15 : FVec F S24 .f32) (main_arg16 : FVec F S24x40 .f32) (main_arg17 : FVec F S24 .f32) (main_arg18 : FVec F S24x40 .f32) (main_arg19 : FVec F S24 .f32) (main_arg20 : FVec F S24x20 .f32) (main_arg21 : FVec F S24 .f32) (main_arg22 : FVec F S24x20 .f32) (main_arg23 : FVec F S24 .f32) (main_arg24 : FVec F S24x20 .f32) (main_arg25 : FVec F S24 .f32) (main_arg26 : FVec F S48x144 .f32) (main_arg27 : FVec F S48 .f32) (main_arg28 : FVec F S48x48 .f32) (main_arg29 : FVec F S48 .f32) (main_arg30 : FVec F S48x96 .f32) (main_arg31 : FVec F S48 .f32) : IVec S_ 1 :=
  let main_v0 : FVec F S262144x40 .f32 := Host.absf main_arg0
  let main_cst : FVec F S_ .f32 := constant S_ .f32 0x7F800000#32
  let main_v1 : FVec F S262144x40 .f32 := broadcastInDim S262144x40 ![] bcast_S_S262144x40 main_cst
  let main_v2 : IVec S262144x40 1 := cmpf .olt main_v0 main_v1
  let main_c : IVec S_ 1 := constantI S_ 1 1#1
  let main_v3 : IVec S_ 1 := (fun x v => Host.reduce IntOp.andi x v reducesTo_S262144x40_S_d0_1 h_S_) main_v2 main_c
  let main_v4 : FVec F S262144x20 .f32 := Host.absf main_arg1
  let main_cst_0 : FVec F S_ .f32 := constant S_ .f32 0x7F800000#32
  let main_v5 : FVec F S262144x20 .f32 := broadcastInDim S262144x20 ![] bcast_S_S262144x20 main_cst_0
  let main_v6 : IVec S262144x20 1 := cmpf .olt main_v4 main_v5
  let main_c_1 : IVec S_ 1 := constantI S_ 1 1#1
  let main_v7 : IVec S_ 1 := (fun x v => Host.reduce IntOp.andi x v reducesTo_S262144x20_S_d0_1 h_S_) main_v6 main_c_1
  let main_v8 : IVec S_ 1 := andi main_v3 main_v7
  let main_v9 : FVec F S48x40 .f32 := Host.absf main_arg2
  let main_cst_2 : FVec F S_ .f32 := constant S_ .f32 0x7F800000#32
  let main_v10 : FVec F S48x40 .f32 := broadcastInDim S48x40 ![] bcast_S_S48x40 main_cst_2
  let main_v11 : IVec S48x40 1 := cmpf .olt main_v9 main_v10
  let main_c_3 : IVec S_ 1 := constantI S_ 1 1#1
  let main_v12 : IVec S_ 1 := (fun x v => Host.reduce IntOp.andi x v reducesTo_S48x40_S_d0_1 h_S_) main_v11 main_c_3
  let main_v13 : IVec S_ 1 := andi main_v8 main_v12
  let main_v14 : FVec F S48 .f32 := Host.absf main_arg3
  let main_cst_4 : FVec F S_ .f32 := constant S_ .f32 0x7F800000#32
  let main_v15 : FVec F S48 .f32 := broadcastInDim S48 ![] bcast_S_S48 main_cst_4
  let main_v16 : IVec S48 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_arg19 main_arg20 main_arg21 main_arg22 main_arg23 main_arg24 main_arg25 main_arg26 main_arg27 main_arg28 main_arg29 main_arg30 main_arg31 main_v13 main_v16
-- ==== Kernel.lean ====
abbrev S262144x40 : Shape := ⟨2, ![262144, 40]⟩
abbrev S262144x20 : Shape := ⟨2, ![262144, 20]⟩
abbrev S48x40 : Shape := ⟨2, ![48, 40]⟩
abbrev S48 : Shape := ⟨1, ![48]⟩
abbrev S48x20 : Shape := ⟨2, ![48, 20]⟩
abbrev S24x40 : Shape := ⟨2, ![24, 40]⟩
abbrev S24 : Shape := ⟨1, ![24]⟩
abbrev S24x20 : Shape := ⟨2, ![24, 20]⟩
abbrev S48x144 : Shape := ⟨2, ![48, 144]⟩
abbrev S48x48 : Shape := ⟨2, ![48, 48]⟩
abbrev S48x96 : Shape := ⟨2, ![48, 96]⟩
abbrev S1x48 : Shape := ⟨2, ![1, 48]⟩
abbrev S1x24 : Shape := ⟨2, ![1, 24]⟩
abbrev S262144x48 : Shape := ⟨2, ![262144, 48]⟩
abbrev S8192x40 : Shape := ⟨2, ![8192, 40]⟩
abbrev S8192x20 : Shape := ⟨2, ![8192, 20]⟩
abbrev S8192x48 : Shape := ⟨2, ![8192, 48]⟩
abbrev S20x48 : Shape := ⟨2, ![20, 48]⟩
abbrev S40x48 : Shape := ⟨2, ![40, 48]⟩
abbrev S40x24 : Shape := ⟨2, ![40, 24]⟩
abbrev S8192x24 : Shape := ⟨2, ![8192, 24]⟩
abbrev S20x24 : Shape := ⟨2, ![20, 24]⟩
abbrev S8192x144 : Shape := ⟨2, ![8192, 144]⟩
abbrev S144x48 : Shape := ⟨2, ![144, 48]⟩
abbrev S8192x96 : Shape := ⟨2, ![8192, 96]⟩
abbrev S96x48 : Shape := ⟨2, ![96, 48]⟩

abbrev nBuf : Space → Nat
  | .hbm => 40
  | .vmem => 20
  | .smem => 0
  | _ => 0

abbrev bufTy : (tb : Table) → Fin (tcTables nBuf tb) → BufTy
  | .hbm, ⟨0, _⟩ => ⟨S262144x40, .f32⟩
  | .hbm, ⟨1, _⟩ => ⟨S262144x20, .f32⟩
  | .hbm, ⟨2, _⟩ => ⟨S48x40, .f32⟩
  | .hbm, ⟨3, _⟩ => ⟨S48, .f32⟩
  | .hbm, ⟨4, _⟩ => ⟨S48x20, .f32⟩
  | .hbm, ⟨5, _⟩ => ⟨S48, .f32⟩
  | .hbm, ⟨6, _⟩ => ⟨S48x20, .f32⟩
  | .hbm, ⟨7, _⟩ => ⟨S48, .f32⟩
  | .hbm, ⟨8, _⟩ => ⟨S48x20, .f32⟩
  | .hbm, ⟨9, _⟩ => ⟨S48, .f32⟩
  | .hbm, ⟨10, _⟩ => ⟨S48x40, .f32⟩
  | .hbm, ⟨11, _⟩ => ⟨S48, .f32⟩
  | .hbm, ⟨12, _⟩ => ⟨S48x40, .f32⟩
  | .hbm, ⟨13, _⟩ => ⟨S48, .f32⟩
  | .hbm, ⟨14, _⟩ => ⟨S24x40, .f32⟩
  | .hbm, ⟨15, _⟩ => ⟨S24, .f32⟩
  | .hbm, ⟨16, _⟩ => ⟨S24x40, .f32⟩
  | .hbm, ⟨17, _⟩ => ⟨S24, .f32⟩
  | .hbm, ⟨18, _⟩ => ⟨S24x40, .f32⟩
  | .hbm, ⟨19, _⟩ => ⟨S24, .f32⟩
  | .hbm, ⟨20, _⟩ => ⟨S24x20, .f32⟩
  | .hbm, ⟨21, _⟩ => ⟨S24, .f32⟩
  | .hbm, ⟨22, _⟩ => ⟨S24x20, .f32⟩
  | .hbm, ⟨23, _⟩ => ⟨S24, .f32⟩
  | .hbm, ⟨24, _⟩ => ⟨S24x20, .f32⟩
  | .hbm, ⟨25, _⟩ => ⟨S24, .f32⟩
  | .hbm, ⟨26, _⟩ => ⟨S48x144, .f32⟩
  | .hbm, ⟨27, _⟩ => ⟨S48, .f32⟩
  | .hbm, ⟨28, _⟩ => ⟨S48x48, .f32⟩
  | .hbm, ⟨29, _⟩ => ⟨S48, .f32⟩
  | .hbm, ⟨30, _⟩ => ⟨S48x96, .f32⟩
  | .hbm, ⟨31, _⟩ => ⟨S48, .f32⟩
  | .hbm, ⟨32, _⟩ => ⟨S1x48, .f32⟩
  | .hbm, ⟨33, _⟩ => ⟨S1x48, .f32⟩
  | .hbm, ⟨34, _⟩ => ⟨S1x24, .f32⟩
  | .hbm, ⟨35, _⟩ => ⟨S1x24, .f32⟩
  | .hbm, ⟨36, _⟩ => ⟨S1x48, .f32⟩
  | .hbm, ⟨37, _⟩ => ⟨S1x48, .f32⟩
  | .hbm, ⟨38, _⟩ => ⟨S1x48, .f32⟩
  | .hbm, ⟨39, _⟩ => ⟨S262144x48, .f32⟩
  | .local _ .vmem, ⟨0, _⟩ => ⟨S8192x40, .f32⟩
  | .local _ .vmem, ⟨1, _⟩ => ⟨S8192x40, .f32⟩
  | .local _ .vmem, ⟨2, _⟩ => ⟨S8192x20, .f32⟩
  | .local _ .vmem, ⟨3, _⟩ => ⟨S8192x20, .f32⟩
  | .local _ .vmem, ⟨4, _⟩ => ⟨S48x20, .f32⟩
  | .local _ .vmem, ⟨5, _⟩ => ⟨S1x48, .f32⟩
  | .local _ .vmem, ⟨6, _⟩ => ⟨S48x40, .f32⟩
  | .local _ .vmem, ⟨7, _⟩ => ⟨S1x48, .f32⟩
  | .local _ .vmem, ⟨8, _⟩ => ⟨S24x40, .f32⟩
  | .local _ .vmem, ⟨9, _⟩ => ⟨S1x24, .f32⟩
  | .local _ .vmem, ⟨10, _⟩ => ⟨S24x20, .f32⟩
  | .local _ .vmem, ⟨11, _⟩ => ⟨S1x24, .f32⟩
  | .local _ .vmem, ⟨12, _⟩ => ⟨S48x144, .f32⟩
  | .local _ .vmem, ⟨13, _⟩ => ⟨S1x48, .f32⟩
  | .local _ .vmem, ⟨14, _⟩ => ⟨S48x48, .f32⟩
  | .local _ .vmem, ⟨15, _⟩ => ⟨S1x48, .f32⟩
  | .local _ .vmem, ⟨16, _⟩ => ⟨S48x96, .f32⟩
  | .local _ .vmem, ⟨17, _⟩ => ⟨S1x48, .f32⟩
  | .local _ .vmem, ⟨18, _⟩ => ⟨S8192x48, .f32⟩
  | .local _ .vmem, ⟨19, _⟩ => ⟨S8192x48, .f32⟩
  | _, _ => ⟨S262144x40, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_v0 : Ref sig .tc := ⟨.hbm, 32, rfl⟩
abbrev main_v1 : Ref sig .tc := ⟨.hbm, 33, rfl⟩
abbrev main_v2 : Ref sig .tc := ⟨.hbm, 34, rfl⟩
abbrev main_v3 : Ref sig .tc := ⟨.hbm, 35, rfl⟩
abbrev main_v4 : Ref sig .tc := ⟨.hbm, 36, rfl⟩
abbrev main_v5 : Ref sig .tc := ⟨.hbm, 37, rfl⟩
abbrev main_v6 : Ref sig .tc := ⟨.hbm, 38, rfl⟩
abbrev main_v7 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg13_0 : Ref sig .tc := ⟨.vmem, 15, rfl⟩
abbrev cc0_stg14_0 : Ref sig .tc := ⟨.vmem, 16, rfl⟩
abbrev cc0_stg15_0 : Ref sig .tc := ⟨.vmem, 17, rfl⟩
abbrev cc0_stg16_0 : Ref sig .tc := ⟨.vmem, 18, rfl⟩
abbrev cc0_stg16_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem13_0 : DmaSem sig := 15
abbrev cc0_sem14_0 : DmaSem sig := 16
abbrev cc0_sem15_0 : DmaSem sig := 17
abbrev cc0_sem16_0 : DmaSem sig := 18
abbrev cc0_sem16_1 : DmaSem sig := 19

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8192x40 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8192x20 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S48x20 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x48 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S48x40 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x48 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S24x40 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x24 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S24x20 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x24 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S48x144 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x48 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S48x48 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x48 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S48x96 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x48 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 2 → Memref sig .tc .vmem S8192x48 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

class Facts₀ : Prop where
  shapeCasts_S48_S1x48 : S48.ShapeCasts S1x48
  shapeCasts_S24_S1x24 : S24.ShapeCasts S1x24
  inb_S8192x40_S8192x40_0_0 : ∀ a, (![0, 0] : Fin 2 → Nat) a + S8192x40.size a ≤ S8192x40.size a
  h_S8192x40 : 0 < S8192x40.numel
  inb_S8192x20_S8192x20_0_0 : ∀ a, (![0, 0] : Fin 2 → Nat) a + S8192x20.size a ≤ S8192x20.size a
  h_S8192x20 : 0 < S8192x20.numel
  inb_S48x20_S48x20_0_0 : ∀ a, (![0, 0] : Fin 2 → Nat) a + S48x20.size a ≤ S48x20.size a
  h_S48x20 : 0 < S48x20.numel
  transposes_S48x20_p1_0_S20x48 : S48x20.Transposes [1, 0] S20x48
  inb_S1x48_S1x48_0_0 : ∀ a, (![0, 0] : Fin 2 → Nat) a + S1x48.size a ≤ S1x48.size a
  h_S1x48 : 0 < S1x48.numel
  shapeCasts_S1x48_S1x48 : S1x48.ShapeCasts S1x48
  broadcasts_S1x48_S8192x48 : S1x48.Broadcasts S8192x48
  inb_S48x40_S48x40_0_0 : ∀ a, (![0, 0] : Fin 2 → Nat) a + S48x40.size a ≤ S48x40.size a
  h_S48x40 : 0 < S48x40.numel
  transposes_S48x40_p1_0_S40x48 : S48x40.Transposes [1, 0] S40x48
  inb_S24x40_S24x40_0_0 : ∀ a, (![0, 0] : Fin 2 → Nat) a + S24x40.size a ≤ S24x40.size a
  h_S24x40 : 0 < S24x40.numel
  transposes_S24x40_p1_0_S40x24 : S24x40.Transposes [1, 0] S40x24
  inb_S1x24_S1x24_0_0 : ∀ a, (![0, 0] : Fin 2 → Nat) a + S1x24.size a ≤ S1x24.size a
  h_S1x24 : 0 < S1x24.numel
  shapeCasts_S1x24_S1x24 : S1x24.ShapeCasts S1x24
  broadcasts_S1x24_S8192x24 : S1x24.Broadcasts S8192x24
  inb_S24x20_S24x20_0_0 : ∀ a, (![0, 0] : Fin 2 → Nat) a + S24x20.size a ≤ S24x20.size a
  h_S24x20 : 0 < S24x20.numel
  transposes_S24x20_p1_0_S20x24 : S24x20.Transposes [1, 0] S20x24
  concatenates_S8192x48_S8192x48_S8192x24_S8192x24_S8192x144_d1 : Shape.Concatenates [S8192x48, S8192x48, S8192x24, S8192x24] S8192x144 1
  inb_S48x144_S48x144_0_0 : ∀ a, (![0, 0] : Fin 2 → Nat) a + S48x144.size a ≤ S48x144.size a
  h_S48x144 : 0 < S48x144.numel
  transposes_S48x144_p1_0_S144x48 : S48x144.Transposes [1, 0] S144x48
  inb_S48x48_S48x48_0_0 : ∀ a, (![0, 0] : Fin 2 → Nat) a + S48x48.size a ≤ S48x48.size a
  h_S48x48 : 0 < S48x48.numel
  transposes_S48x48_p1_0_S48x48 : S48x48.Transposes [1, 0] S48x48
  concatenates_S8192x48_S8192x48_S8192x96_d1 : Shape.Concatenates [S8192x48, S8192x48] S8192x96 1
  inb_S48x96_S48x96_0_0 : ∀ a, (![0, 0] : Fin 2 → Nat) a + S48x96.size a ≤ S48x96.size a
  h_S48x96 : 0 < S48x96.numel
  transposes_S48x96_p1_0_S96x48 : S48x96.Transposes [1, 0] S96x48
  inb_S8192x48_S8192x48_0_0 : ∀ a, (![0, 0] : Fin 2 → Nat) a + S8192x48.size a ≤ S8192x48.size a
  h_S8192x48 : 0 < S8192x48.numel
  dot_S8192x20_S20x48_S8192x48_1_0_0_1_n_n_wf : DotDims.WF S8192x20 S20x48 S8192x48 [1] [0] [0] [1] [] []
  dot_S8192x40_S40x48_S8192x48_1_0_0_1_n_n_wf : DotDims.WF S8192x40 S40x48 S8192x48 [1] [0] [0] [1] [] []
  dot_S8192x40_S40x24_S8192x24_1_0_0_1_n_n_wf : DotDims.WF S8192x40 S40x24 S8192x24 [1] [0] [0] [1] [] []
  dot_S8192x20_S20x24_S8192x24_1_0_0_1_n_n_wf : DotDims.WF S8192x20 S20x24 S8192x24 [1] [0] [0] [1] [] []
  dot_S8192x144_S144x48_S8192x48_1_0_0_1_n_n_wf : DotDims.WF S8192x144 S144x48 S8192x48 [1] [0] [0] [1] [] []
  dot_S8192x48_S48x48_S8192x48_1_0_0_1_n_n_wf : DotDims.WF S8192x48 S48x48 S8192x48 [1] [0] [0] [1] [] []
  dot_S8192x96_S96x48_S8192x48_1_0_0_1_n_n_wf : DotDims.WF S8192x96 S96x48 S8192x48 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x40.size a ≤ S262144x40.size a
  hwx0_0 : ∀ i : grid0.Coords, EltTy.bits .f32 = 32 ∨ (Rect.block (s := S262144x40) S8192x40.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8192x20.size a ≤ S262144x20.size a
  hwx0_1 : ∀ i : grid0.Coords, EltTy.bits .f32 = 32 ∨ (Rect.block (s := S262144x20) S8192x20.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S48x20.size a ≤ S48x20.size a
  hwx0_2 : ∀ i : grid0.Coords, EltTy.bits .f32 = 32 ∨ (Rect.block (s := S48x20) S48x20.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x48.size a ≤ S1x48.size a
  hwx0_3 : ∀ i : grid0.Coords, EltTy.bits .f32 = 32 ∨ (Rect.block (s := S1x48) S1x48.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S48x40.size a ≤ S48x40.size a
  hwx0_4 : ∀ i : grid0.Coords, EltTy.bits .f32 = 32 ∨ (Rect.block (s := S48x40) S48x40.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x48.size a ≤ S1x48.size a
  hwx0_5 : ∀ i : grid0.Coords, EltTy.bits .f32 = 32 ∨ (Rect.block (s := S1x48) S1x48.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S24x40.size a ≤ S24x40.size a
  hwx0_6 : ∀ i : grid0.Coords, EltTy.bits .f32 = 32 ∨ (Rect.block (s := S24x40) S24x40.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x24.size a ≤ S1x24.size a
  hwx0_7 : ∀ i : grid0.Coords, EltTy.bits .f32 = 32 ∨ (Rect.block (s := S1x24) S1x24.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S24x20.size a ≤ S24x20.size a
  hwx0_8 : ∀ i : grid0.Coords, EltTy.bits .f32 = 32 ∨ (Rect.block (s := S24x20) S24x20.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x24.size a ≤ S1x24.size a
  hwx0_9 : ∀ i : grid0.Coords, EltTy.bits .f32 = 32 ∨ (Rect.block (s := S1x24) S1x24.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S48x144.size a ≤ S48x144.size a
  hwx0_10 : ∀ i : grid0.Coords, EltTy.bits .f32 = 32 ∨ (Rect.block (s := S48x144) S48x144.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1x48.size a ≤ S1x48.size a
  hwx0_11 : ∀ i : grid0.Coords, EltTy.bits .f32 = 32 ∨ (Rect.block (s := S1x48) S1x48.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S48x48.size a ≤ S48x48.size a
  hwx0_12 : ∀ i : grid0.Coords, EltTy.bits .f32 = 32 ∨ (Rect.block (s := S48x48) S48x48.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S1x48.size a ≤ S1x48.size a
  hwx0_13 : ∀ i : grid0.Coords, EltTy.bits .f32 = 32 ∨ (Rect.block (s := S1x48) S1x48.size (cc0_transform_13 i) (hinb0_13 i)).WholeWords (EltTy.packing .f32)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S48x96.size a ≤ S48x96.size a
  hwx0_14 : ∀ i : grid0.Coords, EltTy.bits .f32 = 32 ∨ (Rect.block (s := S48x96) S48x96.size (cc0_transform_14 i) (hinb0_14 i)).WholeWords (EltTy.packing .f32)
  hstage0_15 : ∀ j, (stage0_15 j).IsWhole
  nbuf0_15 : grid0.bufCount reads0_15 true = 1
  hreads0_15 : ∀ i i' : grid0.Coords, (∀ a, reads0_15 a = true → i a = i' a) → cc0_transform_15 i = cc0_transform_15 i'
  hinb0_15 : ∀ (i : grid0.Coords) a, (cc0_transform_15 i a + 1) * S1x48.size a ≤ S1x48.size a
  hwx0_15 : ∀ i : grid0.Coords, EltTy.bits .f32 = 32 ∨ (Rect.block (s := S1x48) S1x48.size (cc0_transform_15 i) (hinb0_15 i)).WholeWords (EltTy.packing .f32)
  hstage0_16 : ∀ j, (stage0_16 j).IsWhole
  nbuf0_16 : grid0.bufCount reads0_16 false = 2
  hreads0_16 : ∀ i i' : grid0.Coords, (∀ a, reads0_16 a = true → i a = i' a) → cc0_transform_16 i = cc0_transform_16 i'
  hinb0_16 : ∀ (i : grid0.Coords) a, (cc0_transform_16 i a + 1) * S8192x48.size a ≤ S262144x48.size a
  hwx0_16 : ∀ i : grid0.Coords, EltTy.bits .f32 = 32 ∨ (Rect.block (s := S262144x48) S8192x48.size (cc0_transform_16 i) (hinb0_16 i)).WholeWords (EltTy.packing .f32)

variable [Facts₀]

def dot_S8192x20_S20x48_S8192x48_1_0_0_1_n_n : DotDims S8192x20 S20x48 S8192x48 where
  lhsContracting := [1]
  rhsContracting := [0]
  lhsNonContracting := [0]
  rhsNonContracting := [1]
  lhsBatch := []
  rhsBatch := []
  wf := dot_S8192x20_S20x48_S8192x48_1_0_0_1_n_n_wf
def dot_S8192x40_S40x48_S8192x48_1_0_0_1_n_n : DotDims S8192x40 S40x48 S8192x48 where
  lhsContracting := [1]
  rhsContracting := [0]
  lhsNonContracting := [0]
  rhsNonContracting := [1]
  lhsBatch := []
  rhsBatch := []
  wf := dot_S8192x40_S40x48_S8192x48_1_0_0_1_n_n_wf
def dot_S8192x40_S40x24_S8192x24_1_0_0_1_n_n : DotDims S8192x40 S40x24 S8192x24 where
  lhsContracting := [1]
  rhsContracting := [0]
  lhsNonContracting := [0]
  rhsNonContracting := [1]
  lhsBatch := []
  rhsBatch := []
  wf := dot_S8192x40_S40x24_S8192x24_1_0_0_1_n_n_wf
def dot_S8192x20_S20x24_S8192x24_1_0_0_1_n_n : DotDims S8192x20 S20x24 S8192x24 where
  lhsContracting := [1]
  rhsContracting := [0]
  lhsNonContracting := [0]
  rhsNonContracting := [1]
  lhsBatch := []
  rhsBatch := []
  wf := dot_S8192x20_S20x24_S8192x24_1_0_0_1_n_n_wf
def dot_S8192x144_S144x48_S8192x48_1_0_0_1_n_n : DotDims S8192x144 S144x48 S8192x48 where
  lhsContracting := [1]
  rhsContracting := [0]
  lhsNonContracting := [0]
  rhsNonContracting := [1]
  lhsBatch := []
  rhsBatch := []
  wf := dot_S8192x144_S144x48_S8192x48_1_0_0_1_n_n_wf
def dot_S8192x48_S48x48_S8192x48_1_0_0_1_n_n : DotDims S8192x48 S48x48 S8192x48 where
  lhsContracting := [1]
  rhsContracting := [0]
  lhsNonContracting := [0]
  rhsNonContracting := [1]
  lhsBatch := []
  rhsBatch := []
  wf := dot_S8192x48_S48x48_S8192x48_1_0_0_1_n_n_wf
def dot_S8192x96_S96x48_S8192x48_1_0_0_1_n_n : DotDims S8192x96 S96x48 S8192x48 where
  lhsContracting := [1]
  rhsContracting := [0]
  lhsNonContracting := [0]
  rhsNonContracting := [1]
  lhsBatch := []
  rhsBatch := []
  wf := dot_S8192x96_S96x48_S8192x48_1_0_0_1_n_n_wf

abbrev win0_0 : Pipeline.Window sig grid0 :=
  Pipeline.Window.ofSpec (Memref.whole main_arg0) S8192x40.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S8192x20.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg6) S48x20.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x48.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg12) S48x40.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v1) S1x48.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg18) S24x40.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v2) S1x24.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg24) S24x20.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v3) S1x24.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg26) S48x144.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v4) S1x48.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_arg28) S48x48.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v5) S1x48.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_arg30) S48x96.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_v6) S1x48.size cc0_transform_15 reads0_15 false true 1 stage0_15 sem0_15
    hrank0 hreads0_15 hinb0_15 nbuf0_15 (Memref.isWhole_whole _) hwx0_15 hstage0_15

abbrev win0_16 : Pipeline.Window sig grid0 :=
  Pipeline.Window.ofSpec (Memref.whole main_v7) S8192x48.size cc0_transform_16 reads0_16 true false 2 stage0_16 sem0_16
    hrank0 hreads0_16 hinb0_16 nbuf0_16 (Memref.isWhole_whole _) hwx0_16 hstage0_16

abbrev win0 : Fin 17 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | ⟨_ + 17, h⟩ => absurd h (Nat.not_lt.2 (Nat.le_add_left _ _))
abbrev spec0 : Fin 17 → Pipeline.WinSpec sig grid0.rank := fun w => (win0 w).toWinSpec

class Facts : Prop extends Facts₀ where

variable [Facts]
-- ==== ReferenceIdeal.lean ====
abbrev S262144x40 : Shape := ⟨2, ![262144, 40]⟩
abbrev S262144x20 : Shape := ⟨2, ![262144, 20]⟩
abbrev S48x40 : Shape := ⟨2, ![48, 40]⟩
abbrev S48 : Shape := ⟨1, ![48]⟩
abbrev S48x20 : Shape := ⟨2, ![48, 20]⟩
abbrev S24x40 : Shape := ⟨2, ![24, 40]⟩
abbrev S24 : Shape := ⟨1, ![24]⟩
abbrev S24x20 : Shape := ⟨2, ![24, 20]⟩
abbrev S48x144 : Shape := ⟨2, ![48, 144]⟩
abbrev S48x48 : Shape := ⟨2, ![48, 48]⟩
abbrev S48x96 : Shape := ⟨2, ![48, 96]⟩
abbrev S20x48 : Shape := ⟨2, ![20, 48]⟩
abbrev S262144x48 : Shape := ⟨2, ![262144, 48]⟩
abbrev S1x48 : Shape := ⟨2, ![1, 48]⟩
abbrev S40x48 : Shape := ⟨2, ![40, 48]⟩
abbrev S40x24 : Shape := ⟨2, ![40, 24]⟩
abbrev S262144x24 : Shape := ⟨2, ![262144, 24]⟩
abbrev S1x24 : Shape := ⟨2, ![1, 24]⟩
abbrev S20x24 : Shape := ⟨2, ![20, 24]⟩
abbrev S262144x144 : Shape := ⟨2, ![262144, 144]⟩
abbrev S144x48 : Shape := ⟨2, ![144, 48]⟩
abbrev S_ : Shape := ⟨0, ![]⟩
abbrev S262144x96 : Shape := ⟨2, ![262144, 96]⟩
abbrev S96x48 : Shape := ⟨2, ![96, 48]⟩

abbrev nBuf : Space → Nat
  | .hbm => 84
  | .vmem => 0
  | .smem => 0
  | _ => 0

abbrev bufTy : (tb : Table) → Fin (tcTables nBuf tb) → BufTy
  | .hbm, ⟨0, _⟩ => ⟨S262144x40, .f32⟩
  | .hbm, ⟨1, _⟩ => ⟨S262144x20, .f32⟩
  | .hbm, ⟨2, _⟩ => ⟨S48x40, .f32⟩
  | .hbm, ⟨3, _⟩ => ⟨S48, .f32⟩
  | .hbm, ⟨4, _⟩ => ⟨S48x20, .f32⟩
  | .hbm, ⟨5, _⟩ => ⟨S48, .f32⟩
  | .hbm, ⟨6, _⟩ => ⟨S48x20, .f32⟩
  | .hbm, ⟨7, _⟩ => ⟨S48, .f32⟩
  | .hbm, ⟨8, _⟩ => ⟨S48x20, .f32⟩
  | .hbm, ⟨9, _⟩ => ⟨S48, .f32⟩
  | .hbm, ⟨10, _⟩ => ⟨S48x40, .f32⟩
  | .hbm, ⟨11, _⟩ => ⟨S48, .f32⟩
  | .hbm, ⟨12, _⟩ => ⟨S48x40, .f32⟩
  | .hbm, ⟨13, _⟩ => ⟨S48, .f32⟩
  | .hbm, ⟨14, _⟩ => ⟨S24x40, .f32⟩
  | .hbm, ⟨15, _⟩ => ⟨S24, .f32⟩
  | .hbm, ⟨16, _⟩ => ⟨S24x40, .f32⟩
  | .hbm, ⟨17, _⟩ => ⟨S24, .f32⟩
  | .hbm, ⟨18, _⟩ => ⟨S24x40, .f32⟩
  | .hbm, ⟨19, _⟩ => ⟨S24, .f32⟩
  | .hbm, ⟨20, _⟩ => ⟨S24x20, .f32⟩
  | .hbm, ⟨21, _⟩ => ⟨S24, .f32⟩
  | .hbm, ⟨22, _⟩ => ⟨S24x20, .f32⟩
  | .hbm, ⟨23, _⟩ => ⟨S24, .f32⟩
  | .hbm, ⟨24, _⟩ => ⟨S24x20, .f32⟩
  | .hbm, ⟨25, _⟩ => ⟨S24, .f32⟩
  | .hbm, ⟨26, _⟩ => ⟨S48x144, .f32⟩
  | .hbm, ⟨27, _⟩ => ⟨S48, .f32⟩
  | .hbm, ⟨28, _⟩ => ⟨S48x48, .f32⟩
  | .hbm, ⟨29, _⟩ => ⟨S48, .f32⟩
  | .hbm, ⟨30, _⟩ => ⟨S48x96, .f32⟩
  | .hbm, ⟨31, _⟩ => ⟨S48, .f32⟩
  | .hbm, ⟨32, _⟩ => ⟨S20x48, .f32⟩
  | .hbm, ⟨33, _⟩ => ⟨S262144x48, .f32⟩
  | .hbm, ⟨34, _⟩ => ⟨S1x48, .f32⟩
  | .hbm, ⟨35, _⟩ => ⟨S262144x48, .f32⟩
  | .hbm, ⟨36, _⟩ => ⟨S262144x48, .f32⟩
  | .hbm, ⟨37, _⟩ => ⟨S40x48, .f32⟩
  | .hbm, ⟨38, _⟩ => ⟨S262144x48, .f32⟩
  | .hbm, ⟨39, _⟩ => ⟨S1x48, .f32⟩
  | .hbm, ⟨40, _⟩ => ⟨S262144x48, .f32⟩
  | .hbm, ⟨41, _⟩ => ⟨S262144x48, .f32⟩
  | .hbm, ⟨42, _⟩ => ⟨S40x24, .f32⟩
  | .hbm, ⟨43, _⟩ => ⟨S262144x24, .f32⟩
  | .hbm, ⟨44, _⟩ => ⟨S1x24, .f32⟩
  | .hbm, ⟨45, _⟩ => ⟨S262144x24, .f32⟩
  | .hbm, ⟨46, _⟩ => ⟨S262144x24, .f32⟩
  | .hbm, ⟨47, _⟩ => ⟨S20x24, .f32⟩
  | .hbm, ⟨48, _⟩ => ⟨S262144x24, .f32⟩
  | .hbm, ⟨49, _⟩ => ⟨S1x24, .f32⟩
  | .hbm, ⟨50, _⟩ => ⟨S262144x24, .f32⟩
  | .hbm, ⟨51, _⟩ => ⟨S262144x24, .f32⟩
  | .hbm, ⟨52, _⟩ => ⟨S262144x144, .f32⟩
  | .hbm, ⟨53, _⟩ => ⟨S144x48, .f32⟩
  | .hbm, ⟨54, _⟩ => ⟨S262144x48, .f32⟩
  | .hbm, ⟨55, _⟩ => ⟨S1x48, .f32⟩
  | .hbm, ⟨56, _⟩ => ⟨S262144x48, .f32⟩
  | .hbm, ⟨57, _⟩ => ⟨S262144x48, .f32⟩
  | .hbm, ⟨58, _⟩ => ⟨S_, .f32⟩
  | .hbm, ⟨59, _⟩ => ⟨S262144x48, .f32⟩
  | .hbm, ⟨60, _⟩ => ⟨S262144x48, .f32⟩
  | .hbm, ⟨61, _⟩ => ⟨S48x48, .f32⟩
  | .hbm, ⟨62, _⟩ => ⟨S262144x48, .f32⟩
  | .hbm, ⟨63, _⟩ => ⟨S1x48, .f32⟩
  | .hbm, ⟨64, _⟩ => ⟨S262144x48, .f32⟩
  | .hbm, ⟨65, _⟩ => ⟨S262144x48, .f32⟩
  | .hbm, ⟨66, _⟩ => ⟨S_, .f32⟩
  | .hbm, ⟨67, _⟩ => ⟨S262144x48, .f32⟩
  | .hbm, ⟨68, _⟩ => ⟨S262144x48, .f32⟩
  | .hbm, ⟨69, _⟩ => ⟨S262144x96, .f32⟩
  | .hbm, ⟨70, _⟩ => ⟨S96x48, .f32⟩
  | .hbm, ⟨71, _⟩ => ⟨S262144x48, .f32⟩
  | .hbm, ⟨72, _⟩ => ⟨S1x48, .f32⟩
  | .hbm, ⟨73, _⟩ => ⟨S262144x48, .f32⟩
  | .hbm, ⟨74, _⟩ => ⟨S262144x48, .f32⟩
  | .hbm, ⟨75, _⟩ => ⟨S262144x48, .f32⟩
  | .hbm, ⟨76, _⟩ => ⟨S262144x48, .f32⟩
  | .hbm, ⟨77, _⟩ => ⟨S_, .f32⟩
  | .hbm, ⟨78, _⟩ => ⟨S262144x48, .f32⟩
  | .hbm, ⟨79, _⟩ => ⟨S262144x48, .f32⟩
  | .hbm, ⟨80, _⟩ => ⟨S_, .f32⟩
  | .hbm, ⟨81, _⟩ => ⟨S262144x48, .f32⟩
  | .hbm, ⟨82, _⟩ => ⟨S262144x48, .f32⟩
  | .hbm, ⟨83, _⟩ => ⟨S262144x48, .f32⟩
  | _, _ => ⟨S262144x40, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_v0 : Ref sig .tc := ⟨.hbm, 32, rfl⟩
abbrev main_v1 : Ref sig .tc := ⟨.hbm, 33, rfl⟩
abbrev main_v2 : Ref sig .tc := ⟨.hbm, 34, rfl⟩
abbrev main_v3 : Ref sig .tc := ⟨.hbm, 35, rfl⟩
abbrev main_v4 : Ref sig .tc := ⟨.hbm, 36, rfl⟩
abbrev main_v5 : Ref sig .tc := ⟨.hbm, 37, rfl⟩
abbrev main_v6 : Ref sig .tc := ⟨.hbm, 38, rfl⟩
abbrev main_v7 : Ref sig .tc := ⟨.hbm, 39, rfl⟩
abbrev main_v8 : Ref sig .tc := ⟨.hbm, 40, rfl⟩
abbrev main_v9 : Ref sig .tc := ⟨.hbm, 41, rfl⟩
abbrev main_v10 : Ref sig .tc := ⟨.hbm, 42, rfl⟩
abbrev main_v11 : Ref sig .tc := ⟨.hbm, 43, rfl⟩
abbrev main_v12 : Ref sig .tc := ⟨.hbm, 44, rfl⟩
abbrev main_v13 : Ref sig .tc := ⟨.hbm, 45, rfl⟩
abbrev main_v14 : Ref sig .tc := ⟨.hbm, 46, rfl⟩
abbrev main_v15 : Ref sig .tc := ⟨.hbm, 47, rfl⟩
abbrev main_v16 : Ref sig .tc := ⟨.hbm, 48, rfl⟩
abbrev main_v17 : Ref sig .tc := ⟨.hbm, 49, rfl⟩
abbrev main_v18 : Ref sig .tc := ⟨.hbm, 50, rfl⟩
abbrev main_v19 : Ref sig .tc := ⟨.hbm, 51, rfl⟩
abbrev main_v20 : Ref sig .tc := ⟨.hbm, 52, rfl⟩
abbrev main_v21 : Ref sig .tc := ⟨.hbm, 53, rfl⟩
abbrev main_v22 : Ref sig .tc := ⟨.hbm, 54, rfl⟩
abbrev main_v23 : Ref sig .tc := ⟨.hbm, 55, rfl⟩
abbrev main_v24 : Ref sig .tc := ⟨.hbm, 56, rfl⟩
abbrev main_v25 : Ref sig .tc := ⟨.hbm, 57, rfl⟩
abbrev main_call0_cst : Ref sig .tc := ⟨.hbm, 58, rfl⟩
abbrev main_call0_v0 : Ref sig .tc := ⟨.hbm, 59, rfl⟩
abbrev main_v26 : Ref sig .tc := ⟨.hbm, 60, rfl⟩
abbrev main_v27 : Ref sig .tc := ⟨.hbm, 61, rfl⟩
abbrev main_v28 : Ref sig .tc := ⟨.hbm, 62, rfl⟩
abbrev main_v29 : Ref sig .tc := ⟨.hbm, 63, rfl⟩
abbrev main_v30 : Ref sig .tc := ⟨.hbm, 64, rfl⟩
abbrev main_v31 : Ref sig .tc := ⟨.hbm, 65, rfl⟩
abbrev main_call1_cst : Ref sig .tc := ⟨.hbm, 66, rfl⟩
abbrev main_call1_v0 : Ref sig .tc := ⟨.hbm, 67, rfl⟩
abbrev main_v32 : Ref sig .tc := ⟨.hbm, 68, rfl⟩
abbrev main_v33 : Ref sig .tc := ⟨.hbm, 69, rfl⟩
abbrev main_v34 : Ref sig .tc := ⟨.hbm, 70, rfl⟩
abbrev main_v35 : Ref sig .tc := ⟨.hbm, 71, rfl⟩
abbrev main_v36 : Ref sig .tc := ⟨.hbm, 72, rfl⟩
abbrev main_v37 : Ref sig .tc := ⟨.hbm, 73, rfl⟩
abbrev main_v38 : Ref sig .tc := ⟨.hbm, 74, rfl⟩
abbrev main_v39 : Ref sig .tc := ⟨.hbm, 75, rfl⟩
abbrev main_v40 : Ref sig .tc := ⟨.hbm, 76, rfl⟩
abbrev main_cst : Ref sig .tc := ⟨.hbm, 77, rfl⟩
abbrev main_v41 : Ref sig .tc := ⟨.hbm, 78, rfl⟩
abbrev main_v42 : Ref sig .tc := ⟨.hbm, 79, rfl⟩
abbrev main_cst_0 : Ref sig .tc := ⟨.hbm, 80, rfl⟩
abbrev main_v43 : Ref sig .tc := ⟨.hbm, 81, rfl⟩
abbrev main_v44 : Ref sig .tc := ⟨.hbm, 82, rfl⟩
abbrev main_v45 : Ref sig .tc := ⟨.hbm, 83, rfl⟩

abbrev nD : Nat := 1
abbrev τ : Topo := Topo.v7x

variable {F : FTy → Type} [FloatOps F]

class Facts₀ : Prop where
  transposes_S48x20_S20x48_1_0 : S48x20.Transposes [1, 0] S20x48
  bcast_S48_S1x48_1 : S48.BroadcastsInDim S1x48 (![1] : Fin 1 → Fin S1x48.rank)
  bcast_S1x48_S262144x48_0_1 : S1x48.BroadcastsInDim S262144x48 (![0, 1] : Fin 2 → Fin S262144x48.rank)
  transposes_S48x40_S40x48_1_0 : S48x40.Transposes [1, 0] S40x48
  transposes_S24x40_S40x24_1_0 : S24x40.Transposes [1, 0] S40x24
  bcast_S24_S1x24_1 : S24.BroadcastsInDim S1x24 (![1] : Fin 1 → Fin S1x24.rank)
  bcast_S1x24_S262144x24_0_1 : S1x24.BroadcastsInDim S262144x24 (![0, 1] : Fin 2 → Fin S262144x24.rank)
  transposes_S24x20_S20x24_1_0 : S24x20.Transposes [1, 0] S20x24
  concatenates_S262144x48_S262144x48_S262144x24_S262144x24_S262144x144_d1 : Shape.Concatenates [S262144x48, S262144x48, S262144x24, S262144x24] S262144x144 1
  transposes_S48x144_S144x48_1_0 : S48x144.Transposes [1, 0] S144x48
  bcast_S_S262144x48 : S_.BroadcastsInDim S262144x48 (![] : Fin 0 → Fin S262144x48.rank)
  transposes_S48x48_S48x48_1_0 : S48x48.Transposes [1, 0] S48x48
  concatenates_S262144x48_S262144x48_S262144x96_d1 : Shape.Concatenates [S262144x48, S262144x48] S262144x96 1
  transposes_S48x96_S96x48_1_0 : S48x96.Transposes [1, 0] S96x48
  dot_S262144x20_S20x48_S262144x48_1_0_0_1_n_n_wf : DotDims.WF S262144x20 S20x48 S262144x48 [1] [0] [0] [1] [] []
  dot_S262144x40_S40x48_S262144x48_1_0_0_1_n_n_wf : DotDims.WF S262144x40 S40x48 S262144x48 [1] [0] [0] [1] [] []
  dot_S262144x40_S40x24_S262144x24_1_0_0_1_n_n_wf : DotDims.WF S262144x40 S40x24 S262144x24 [1] [0] [0] [1] [] []
  dot_S262144x20_S20x24_S262144x24_1_0_0_1_n_n_wf : DotDims.WF S262144x20 S20x24 S262144x24 [1] [0] [0] [1] [] []
  dot_S262144x144_S144x48_S262144x48_1_0_0_1_n_n_wf : DotDims.WF S262144x144 S144x48 S262144x48 [1] [0] [0] [1] [] []
  dot_S262144x48_S48x48_S262144x48_1_0_0_1_n_n_wf : DotDims.WF S262144x48 S48x48 S262144x48 [1] [0] [0] [1] [] []
  dot_S262144x96_S96x48_S262144x48_1_0_0_1_n_n_wf : DotDims.WF S262144x96 S96x48 S262144x48 [1] [0] [0] [1] [] []

variable [Facts₀]

def dot_S262144x20_S20x48_S262144x48_1_0_0_1_n_n : DotDims S262144x20 S20x48 S262144x48 where
  lhsContracting := [1]
  rhsContracting := [0]
  lhsNonContracting := [0]
  rhsNonContracting := [1]
  lhsBatch := []
  rhsBatch := []
  wf := dot_S262144x20_S20x48_S262144x48_1_0_0_1_n_n_wf
def dot_S262144x40_S40x48_S262144x48_1_0_0_1_n_n : DotDims S262144x40 S40x48 S262144x48 where
  lhsContracting := [1]
  rhsContracting := [0]
  lhsNonContracting := [0]
  rhsNonContracting := [1]
  lhsBatch := []
  rhsBatch := []
  wf := dot_S262144x40_S40x48_S262144x48_1_0_0_1_n_n_wf
def dot_S262144x40_S40x24_S262144x24_1_0_0_1_n_n : DotDims S262144x40 S40x24 S262144x24 where
  lhsContracting := [1]
  rhsContracting := [0]
  lhsNonContracting := [0]
  rhsNonContracting := [1]
  lhsBatch := []
  rhsBatch := []
  wf := dot_S262144x40_S40x24_S262144x24_1_0_0_1_n_n_wf
def dot_S262144x20_S20x24_S262144x24_1_0_0_1_n_n : DotDims S262144x20 S20x24 S262144x24 where
  lhsContracting := [1]
  rhsContracting := [0]
  lhsNonContracting := [0]
  rhsNonContracting := [1]
  lhsBatch := []
  rhsBatch := []
  wf := dot_S262144x20_S20x24_S262144x24_1_0_0_1_n_n_wf
def dot_S262144x144_S144x48_S262144x48_1_0_0_1_n_n : DotDims S262144x144 S144x48 S262144x48 where
  lhsContracting := [1]
  rhsContracting := [0]
  lhsNonContracting := [0]
  rhsNonContracting := [1]
  lhsBatch := []
  rhsBatch := []
  wf := dot_S262144x144_S144x48_S262144x48_1_0_0_1_n_n_wf
def dot_S262144x48_S48x48_S262144x48_1_0_0_1_n_n : DotDims S262144x48 S48x48 S262144x48 where
  lhsContracting := [1]
  rhsContracting := [0]
  lhsNonContracting := [0]
  rhsNonContracting := [1]
  lhsBatch := []
  rhsBatch := []
  wf := dot_S262144x48_S48x48_S262144x48_1_0_0_1_n_n_wf
def dot_S262144x96_S96x48_S262144x48_1_0_0_1_n_n : DotDims S262144x96 S96x48 S262144x48 where
  lhsContracting := [1]
  rhsContracting := [0]
  lhsNonContracting := [0]
  rhsNonContracting := [1]
  lhsBatch := []
  rhsBatch := []
  wf := dot_S262144x96_S96x48_S262144x48_1_0_0_1_n_n_wf

class Facts : Prop extends Facts₀ where

variable [Facts]
-- ==== Proof.Spec.lean ====
/-
  The specification: what one output row is, as a function of one row of each activation array and of the
  weights.

  Every row r of the two activation arrays is treated alone.  Writing  lin W b x  for the row  x·Wᵀ + b
  (entry j is  (Σ_k x k · W j k) + b j ),  the four projections are
      ic = lin Wiv biv text_r,  tc = lin Wtv btv image_r  (48 entries each),
      is = lin Wisv bisv image_r,  ts = lin Wtsv btsv text_r  (24 entries each);
  the hidden row is  h = max (lin Wm1 bm1 (ic ++ tc ++ is ++ ts)) 0 ,  the fused row
  fused = max (lin Wm2 bm2 h) 0 ,  the gate  g = logistic (lin Wg bg (ic ++ tc)) ,  and the output row is
  the entrywise product  fused · g .  Sums run over k in increasing order with the activation as the left
  factor; nothing is reassociated, so the two programs agree on every extended real.
-/
import Idealize.ShloMosaic.PureOps.Ideal
import Idealize.ShloMosaic.Lib.ValueIdx

noncomputable section

namespace Cert.Spec

open Idealize.ShloMosaic Idealize.ShloMosaic.ValueIdx

/-- Entry `j` of the row `x·Wᵀ + b`: the sum over `k` of `x k · W j k`, plus `b j`. -/
def lin {K N : Nat} (W : Fin N → Fin K → EReal) (b : Fin N → EReal) (x : Fin K → EReal) (j : Fin N) : EReal :=
  (∑ k : Fin K, x k * W j k) + b j

/-- The maximum with the zero of the float format (the word of +0.0, kept as a word). -/
def relu (x : EReal) : EReal := max x (Ideal.ofBits .f32 0x00000000#32)

/-- Two rows of 48 entries laid end to end. -/
def cat2 (a b : Fin 48 → EReal) (l : Fin 96) : EReal :=
  if h : l.val < 48 then a ⟨l.val, h⟩ else b ⟨l.val - 48, by have := l.isLt; omega⟩

/-- Rows of 48, 48, 24 and 24 entries laid end to end. -/
def cat4 (a b : Fin 48 → EReal) (c d : Fin 24 → EReal) (l : Fin 144) : EReal :=
  if h : l.val < 48 then a ⟨l.val, h⟩
  else if h2 : l.val < 96 then b ⟨l.val - 48, by omega⟩
  else if h3 : l.val < 120 then c ⟨l.val - 96, by omega⟩
  else d ⟨l.val - 120, by have := l.isLt; omega⟩

/-- Entry `j` of the output row, from the image row, the text row and the fourteen parameter arrays. -/
def rowOut (img : Fin 40 → EReal) (txt : Fin 20 → EReal)
    (Wiv : Fin 48 → Fin 20 → EReal) (biv : Fin 48 → EReal)
    (Wtv : Fin 48 → Fin 40 → EReal) (btv : Fin 48 → EReal)
    (Wisv : Fin 24 → Fin 40 → EReal) (bisv : Fin 24 → EReal)
    (Wtsv : Fin 24 → Fin 20 → EReal) (btsv : Fin 24 → EReal)
    (Wm1 : Fin 48 → Fin 144 → EReal) (bm1 : Fin 48 → EReal)
    (Wm2 : Fin 48 → Fin 48 → EReal) (bm2 : Fin 48 → EReal)
    (Wg : Fin 48 → Fin 96 → EReal) (bg : Fin 48 → EReal) (j : Fin 48) : EReal :=
  relu (lin Wm2 bm2
      (fun k => relu (lin Wm1 bm1
        (cat4 (lin Wiv biv txt) (lin Wtv btv img) (lin Wisv bisv img) (lin Wtsv btsv txt)) k)) j)
    * Ideal.logistic (lin Wg bg (cat2 (lin Wiv biv txt) (lin Wtv btv img)) j)

/-- The whole output array as one function of the sixteen argument arrays the computation reads: entry
    (r, j) is entry `j` of the output row of row `r`. -/
def G (a0 : (⟨2, ![262144, 40]⟩ : Shape).Idx → EReal) (a1 : (⟨2, ![262144, 20]⟩ : Shape).Idx → EReal)
    (a6 : (⟨2, ![48, 20]⟩ : Shape).Idx → EReal) (a7 : (⟨1, ![48]⟩ : Shape).Idx → EReal)
    (a12 : (⟨2, ![48, 40]⟩ : Shape).Idx → EReal) (a13 : (⟨1, ![48]⟩ : Shape).Idx → EReal)
    (a18 : (⟨2, ![24, 40]⟩ : Shape).Idx → EReal) (a19 : (⟨1, ![24]⟩ : Shape).Idx → EReal)
    (a24 : (⟨2, ![24, 20]⟩ : Shape).Idx → EReal) (a25 : (⟨1, ![24]⟩ : Shape).Idx → EReal)
    (a26 : (⟨2, ![48, 144]⟩ : Shape).Idx → EReal) (a27 : (⟨1, ![48]⟩ : Shape).Idx → EReal)
    (a28 : (⟨2, ![48, 48]⟩ : Shape).Idx → EReal) (a29 : (⟨1, ![48]⟩ : Shape).Idx → EReal)
    (a30 : (⟨2, ![48, 96]⟩ : Shape).Idx → EReal) (a31 : (⟨1, ![48]⟩ : Shape).Idx → EReal) :
    (⟨2, ![262144, 48]⟩ : Shape).Idx → EReal := fun i =>
  rowOut (fun k => a0 (ix2 (n0 := 262144) (n1 := 40) (i 0) k)) (fun k => a1 (ix2 (n0 := 262144) (n1 := 20) (i 0) k))
    (fun j k => a6 (ix2 j k)) (fun j => a7 (ix1 j))
    (fun j k => a12 (ix2 j k)) (fun j => a13 (ix1 j))
    (fun j k => a18 (ix2 j k)) (fun j => a19 (ix1 j))
    (fun j k => a24 (ix2 j k)) (fun j => a25 (ix1 j))
    (fun j k => a26 (ix2 j k)) (fun j => a27 (ix1 j))
    (fun j k => a28 (ix2 j k)) (fun j => a29 (ix1 j))
    (fun j k => a30 (ix2 j k)) (fun j => a31 (ix1 j)) (i 1)

/-- The whole-array function at an index given by its two coordinates. -/
theorem G_ix2 (a0 : (⟨2, ![262144, 40]⟩ : Shape).Idx → EReal) (a1 : (⟨2, ![262144, 20]⟩ : Shape).Idx → EReal)
    (a6 : (⟨2, ![48, 20]⟩ : Shape).Idx → EReal) (a7 : (⟨1, ![48]⟩ : Shape).Idx → EReal)
    (a12 : (⟨2, ![48, 40]⟩ : Shape).Idx → EReal) (a13 : (⟨1, ![48]⟩ : Shape).Idx → EReal)
    (a18 : (⟨2, ![24, 40]⟩ : Shape).Idx → EReal) (a19 : (⟨1, ![24]⟩ : Shape).Idx → EReal)
    (a24 : (⟨2, ![24, 20]⟩ : Shape).Idx → EReal) (a25 : (⟨1, ![24]⟩ : Shape).Idx → EReal)
    (a26 : (⟨2, ![48, 144]⟩ : Shape).Idx → EReal) (a27 : (⟨1, ![48]⟩ : Shape).Idx → EReal)
    (a28 : (⟨2, ![48, 48]⟩ : Shape).Idx → EReal) (a29 : (⟨1, ![48]⟩ : Shape).Idx → EReal)
    (a30 : (⟨2, ![48, 96]⟩ : Shape).Idx → EReal) (a31 : (⟨1, ![48]⟩ : Shape).Idx → EReal)
    (r : Fin 262144) (j : Fin 48) :
    G a0 a1 a6 a7 a12 a13 a18 a19 a24 a25 a26 a27 a28 a29 a30 a31 (ix2 r j)
      = rowOut (fun k => a0 (ix2 r k)) (fun k => a1 (ix2 r k))
          (fun j k => a6 (ix2 j k)) (fun j => a7 (ix1 j))
          (fun j k => a12 (ix2 j k)) (fun j => a13 (ix1 j))
          (fun j k => a18 (ix2 j k)) (fun j => a19 (ix1 j))
          (fun j k => a24 (ix2 j k)) (fun j => a25 (ix1 j))
          (fun j k => a26 (ix2 j k)) (fun j => a27 (ix1 j))
          (fun j k => a28 (ix2 j k)) (fun j => a29 (ix1 j))
          (fun j k => a30 (ix2 j k)) (fun j => a31 (ix1 j)) j := rfl

end Cert.Spec

end
-- ==== Proof.Final.lean ====
/-
  From blocks to the whole array.

  At grid point t the body stores, at entry (p, q) of the output block, entry q of the specification's
  output row computed from row p of the two activation blocks and from the parameter blocks (the payload
  fact, proved over variables in its own module and taken here as a hypothesis).  Read through the
  windows, row p of an activation block at point t is row 8192·t + p of the activation array, a parameter
  block is its whole array, and a bias block's one row is the bias vector.  So point t writes back rows
  8192·t … 8192·t + 8191 of the specification's whole-array function of the arguments; the 32 bands
  cover all 262144 rows (row r lies in band r / 8192), hence the result array ends at that function.
-/
import proofs.«158515_j64811056496793_1_alg».proof.Proof.BlockReads
import proofs.«158515_j64811056496793_1_alg».proof.Proof.Spec

noncomputable section

open Idealize.ShloMosaic Idealize.ShloMosaic.TcCoe Idealize.SL.Sem Idealize.ShloMosaic.ValueIdx
open Idealize.ShloMosaic.Pipeline (Dat)

namespace Cert.KernelIdeal.Final

open Cert.KernelIdeal Cert.KernelIdeal.Gen Cert.KernelIdeal.BlockReads

variable (m : (ℓ : Loc nD τ sig) → Buf (Elt Ideal) ℓ)

theorem hz : (![0, 0] : Fin 2 → Nat) = fun _ => 0 := funext fun a => by fin_cases a <;> rfl

/-- The payload fact: entry (p, q) of the value the body stores is entry q of the specification's output
    row of row p of the activation blocks, for any loaded blocks. -/
def PayIsRow : Prop :=
  ∀ (x0 : Vec Ideal S8192x40 .f32) (x1 : Vec Ideal S8192x20 .f32)
    (x2 : Vec Ideal S48x20 .f32) (x3 : Vec Ideal S1x48 .f32)
    (x4 : Vec Ideal S48x40 .f32) (x5 : Vec Ideal S1x48 .f32)
    (x6 : Vec Ideal S24x40 .f32) (x7 : Vec Ideal S1x24 .f32)
    (x8 : Vec Ideal S24x20 .f32) (x9 : Vec Ideal S1x24 .f32)
    (x10 : Vec Ideal S48x144 .f32) (x11 : Vec Ideal S1x48 .f32)
    (x12 : Vec Ideal S48x48 .f32) (x13 : Vec Ideal S1x48 .f32)
    (x14 : Vec Ideal S48x96 .f32) (x15 : Vec Ideal S1x48 .f32)
    (p : Fin 8192) (q : Fin 48),
    k0_pay1 (F := Ideal) (k0_pay2 x1 x2 x3) (k0_pay3 x0 x4 x5) (k0_pay4 x0 x1 x2 x3 x4 x5 x6 x7 x8 x9)
        (k0_pay5 x10) x11 x12 x13 x14 x15 (ix2 p q)
      = Cert.Spec.rowOut (fun k => x0 (ix2 p k)) (fun k => x1 (ix2 p k))
          (fun j k => x2 (ix2 j k)) (fun j => x3 (ix2 (0 : Fin 1) j))
          (fun j k => x4 (ix2 j k)) (fun j => x5 (ix2 (0 : Fin 1) j))
          (fun j k => x6 (ix2 j k)) (fun j => x7 (ix2 (0 : Fin 1) j))
          (fun j k => x8 (ix2 j k)) (fun j => x9 (ix2 (0 : Fin 1) j))
          (fun j k => x10 (ix2 j k)) (fun j => x11 (ix2 (0 : Fin 1) j))
          (fun j k => x12 (ix2 j k)) (fun j => x13 (ix2 (0 : Fin 1) j))
          (fun j k => x14 (ix2 j k)) (fun j => x15 (ix2 (0 : Fin 1) j)) q

/-- What the body leaves in the output block, at an index: the one store covers the block, and every load
    reads a whole input block. -/
theorem out_apply (hpay : PayIsRow) (x0 : Vec Ideal S8192x40 .f32) (x1 : Vec Ideal S8192x20 .f32)
    (x2 : Vec Ideal S48x20 .f32) (x3 : Vec Ideal S1x48 .f32)
    (x4 : Vec Ideal S48x40 .f32) (x5 : Vec Ideal S1x48 .f32)
    (x6 : Vec Ideal S24x40 .f32) (x7 : Vec Ideal S1x24 .f32)
    (x8 : Vec Ideal S24x20 .f32) (x9 : Vec Ideal S1x24 .f32)
    (x10 : Vec Ideal S48x144 .f32) (x11 : Vec Ideal S1x48 .f32)
    (x12 : Vec Ideal S48x48 .f32) (x13 : Vec Ideal S1x48 .f32)
    (x14 : Vec Ideal S48x96 .f32) (x15 : Vec Ideal S1x48 .f32)
    (p : Fin 8192) (q : Fin 48) :
    out0_16 (F := Ideal) x0 x1 x2 x3 x4 x5 x6 x7 x8 x9 x10 x11 x12 x13 x14 x15 (ix2 p q)
      = Cert.Spec.rowOut (fun k => x0 (ix2 p k)) (fun k => x1 (ix2 p k))
          (fun j k => x2 (ix2 j k)) (fun j => x3 (ix2 (0 : Fin 1) j))
          (fun j k => x4 (ix2 j k)) (fun j => x5 (ix2 (0 : Fin 1) j))
          (fun j k => x6 (ix2 j k)) (fun j => x7 (ix2 (0 : Fin 1) j))
          (fun j k => x8 (ix2 j k)) (fun j => x9 (ix2 (0 : Fin 1) j))
          (fun j k => x10 (ix2 j k)) (fun j => x11 (ix2 (0 : Fin 1) j))
          (fun j k => x12 (ix2 j k)) (fun j => x13 (ix2 (0 : Fin 1) j))
          (fun j k => x14 (ix2 j k)) (fun j => x15 (ix2 (0 : Fin 1) j)) q := by
  unfold out0_16
  rw [View.canon_unit_zero hz]
  simp only [View.ld_unit_zero (S := S8192x40) hz, View.ld_unit_zero (S := S8192x20) hz,
    View.ld_unit_zero (S := S48x20) hz, View.ld_unit_zero (S := S1x48) hz, View.ld_unit_zero (S := S48x40) hz,
    View.ld_unit_zero (S := S24x40) hz, View.ld_unit_zero (S := S1x24) hz, View.ld_unit_zero (S := S24x20) hz,
    View.ld_unit_zero (S := S48x144) hz, View.ld_unit_zero (S := S48x48) hz, View.ld_unit_zero (S := S48x96) hz]
  exact hpay x0 x1 x2 x3 x4 x5 x6 x7 x8 x9 x10 x11 x12 x13 x14 x15 p q

/-- The specification's whole-array function of the launch contents of the sixteen arguments the
    computation reads. -/
abbrev Gm (c : Dev nD) : S262144x48.Idx → EReal :=
  Cert.Spec.G (m ((c : Thread nD τ).loc main_arg0))
      (m ((c : Thread nD τ).loc main_arg1))
      (m ((c : Thread nD τ).loc main_arg6))
      (m ((c : Thread nD τ).loc main_arg7))
      (m ((c : Thread nD τ).loc main_arg12))
      (m ((c : Thread nD τ).loc main_arg13))
      (m ((c : Thread nD τ).loc main_arg18))
      (m ((c : Thread nD τ).loc main_arg19))
      (m ((c : Thread nD τ).loc main_arg24))
      (m ((c : Thread nD τ).loc main_arg25))
      (m ((c : Thread nD τ).loc main_arg26))
      (m ((c : Thread nD τ).loc main_arg27))
      (m ((c : Thread nD τ).loc main_arg28))
      (m ((c : Thread nD τ).loc main_arg29))
      (m ((c : Thread nD τ).loc main_arg30))
      (m ((c : Thread nD τ).loc main_arg31))

/-- Entry (p, q) of the output block at point `t` is entry (8192·t + p, q) of the result array. -/
theorem emb16 (t : Fin cfg0.N) (p : Fin 8192) (q : Fin 48) :
    ((cfg0.win 16).blk t).view.emb (ix2 p q : S8192x48.Idx) = (ix2 (rowOf t p) q : S262144x48.Idx) := by
  obtain ⟨h0, h1⟩ := idx16 t
  funext a
  apply Fin.ext
  match a with
  | ⟨0, _⟩ => show win0_16.index t (0 : Fin 2) * 8192 + 1 * p.val = t.val * 8192 + p.val; rw [h0]; omega
  | ⟨1, _⟩ => show win0_16.index t (1 : Fin 2) * 48 + 1 * q.val = q.val; rw [h1]; omega

/-- What point `t` writes back is block `t` of the specification's whole-array function. -/
theorem flushed16_eq (hpay : PayIsRow) (c : Dev nD) (t : Fin cfg0.N) :
    (dats m 0 c).flushed 16 t = ((cfg0.win 16).blk t).view.read (Elt Ideal) (Gm m c) := by
  rw [Cert.KernelIdeal.Value.flushed16]
  refine funext fun (j : S8192x48.Idx) => ?_
  obtain ⟨p, q, rfl⟩ : ∃ (p : Fin 8192) (q : Fin 48), j = ix2 p q := ⟨j 0, j 1, eq_ix2 j⟩
  show out0_16 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (ix2 p q)
      = Gm m c (((cfg0.win 16).blk t).view.emb (ix2 p q : S8192x48.Idx))
  rw [out_apply hpay, emb16]
  unfold Gm
  rw [Cert.Spec.G_ix2]
  simp only [read0, read1, read2, read3, read4, read5, read6, read7, read8, read9, read10, read11, read12, read13, read14, read15]

/-- An index of the result array is in point `t`'s block iff each coordinate is in the block's range. -/
theorem mem_blk16 (t : Fin cfg0.N) (i : S262144x48.Idx) :
    i ∈ ((cfg0.win 16).blk t).view.set ↔ ∀ a : Fin 2, win0_16.index t a * S8192x48.size a ≤ (i a).val ∧ (i a).val < win0_16.index t a * S8192x48.size a + S8192x48.size a := by
  show i ∈ ((View.whole main_v7).slice (win0_16.rect t)).set ↔ _
  rw [View.set_slice_whole, Rect.mem_set_unit]
  exact Iff.rfl

/-- Every index of the result array lies in the block of the point whose band holds its row. -/
theorem cover16 (i : S262144x48.Idx) :
    ∃ t : Fin cfg0.N, (cfg0.win 16).flush t = true ∧ i ∈ ((cfg0.win 16).blk t).view.set := by
  have hi0 : (i 0).val < 262144 := (i 0).isLt
  have hi1 : (i 1).val < 48 := (i 1).isLt
  have hN : cfg0.N = 32 := N_0
  have hlt : (i 0).val / 8192 < cfg0.N := by omega
  obtain ⟨h0, h1⟩ := idx16 ⟨(i 0).val / 8192, hlt⟩
  refine ⟨⟨(i 0).val / 8192, hlt⟩, flush0_16 _, ?_⟩
  rw [mem_blk16]
  intro a
  match a with
  | ⟨0, _⟩ =>
    show win0_16.index ⟨(i 0).val / 8192, hlt⟩ (0 : Fin 2) * 8192 ≤ (i 0).val
      ∧ (i 0).val < win0_16.index ⟨(i 0).val / 8192, hlt⟩ (0 : Fin 2) * 8192 + 8192
    rw [h0]; show (i 0).val / 8192 * 8192 ≤ (i 0).val ∧ (i 0).val < (i 0).val / 8192 * 8192 + 8192; omega
  | ⟨1, _⟩ =>
    show win0_16.index ⟨(i 0).val / 8192, hlt⟩ (1 : Fin 2) * 48 ≤ (i 1).val
      ∧ (i 1).val < win0_16.index ⟨(i 0).val / 8192, hlt⟩ (1 : Fin 2) * 48 + 48
    rw [h1]; omega

/-- The result array after the run is the specification's whole-array function of the arguments. -/
theorem final16 (hpay : PayIsRow) (c : Dev nD) : (dats m 0 c).arrAt 16 cfg0.N = Gm m c :=
  (dats m 0 c).arrAt_eq_of_cover 16 (Gm m c) (fun t _ => flushed16_eq m hpay c t) cover16

end Cert.KernelIdeal.Final

end
-- ==== Proof.LibDotRows.lean ====
/-
  A plain two-dimensional contraction read at an index.

  For dimension numbers that contract the left operand's columns with the right operand's rows and have
  no batch axis — an M×K array times a K×N array — the sum over the contraction index that a matrix
  product denotes on the extended reals is the familiar row-by-column sum: entry (r, c) of the product is
  the sum over k < K of left (r, k) · right (k, c).  Both the kernel-side product into a zero accumulator
  and the host-side product follow.
-/
import Idealize.ShloMosaic.Lib.ValueIdx
import Idealize.ShloMosaic.PureOps.Ideal.Laws

noncomputable section

namespace Idealize.ShloMosaic.DotRows

open Idealize.ShloMosaic Idealize.ShloMosaic.ValueIdx

/-- The contraction sum of a plain M×K by K×N product at entry `j` is the sum over `k < K` of the left
    operand at (row of `j`, `k`) times the right operand at (`k`, column of `j`). -/
theorem contr_sum {M K N : Nat} (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = [])
    (lhs : (⟨2, ![M, K]⟩ : Shape).Idx → EReal) (rhs : (⟨2, ![K, N]⟩ : Shape).Idx → EReal)
    (j : (⟨2, ![M, N]⟩ : Shape).Idx) :
    ∑ k : d.contr.Idx, lhs (d.lhsIdx j k) * rhs (d.rhsIdx j k)
      = ∑ k : Fin K, lhs (ix2 (j 0) k) * rhs (ix2 k (j 1)) := by
  obtain ⟨lc, rc, ln, rn, lb, rb, wf⟩ := d
  dsimp only at hlc hrc hln hrn hlb hrb
  subst hlc hrc hln hrn hlb hrb
  rw [← Equiv.sum_comp (contrEquiv1 (DotDims.mk [1] [0] [0] [1] [] [] wf) K rfl rfl).symm]
  refine Finset.sum_congr rfl fun k _ => ?_
  have hk := contrEquiv1_symm_val (DotDims.mk [1] [0] [0] [1] [] [] wf) K rfl rfl k
  have el : (DotDims.mk [1] [0] [0] [1] [] [] wf).lhsIdx j ((contrEquiv1 (DotDims.mk [1] [0] [0] [1] [] [] wf) K rfl rfl).symm k)
      = ix2 (j 0) k := funext fun a => Fin.ext (by
    match a with
    | ⟨0, _⟩ =>
      show ((DotDims.mk [1] [0] [0] [1] [] [] wf).lhsIdx j _ 0).val = (j 0).val
      unfold DotDims.lhsIdx
      rw [dif_neg (show ¬ (0 : Fin 2) ∈ ([] : List (Fin 2)) from List.not_mem_nil),
        dif_pos (show (0 : Fin 2) ∈ ([0] : List (Fin 2)) from List.mem_singleton.mpr rfl)]
      rfl
    | ⟨1, _⟩ => exact ((DotDims.mk [1] [0] [0] [1] [] [] wf).lhsIdx_val_of_single rfl j _).trans hk)
  have er : (DotDims.mk [1] [0] [0] [1] [] [] wf).rhsIdx j ((contrEquiv1 (DotDims.mk [1] [0] [0] [1] [] [] wf) K rfl rfl).symm k)
      = ix2 k (j 1) := funext fun a => Fin.ext (by
    match a with
    | ⟨0, _⟩ => exact ((DotDims.mk [1] [0] [0] [1] [] [] wf).rhsIdx_val_of_single rfl j _).trans hk
    | ⟨1, _⟩ =>
      show ((DotDims.mk [1] [0] [0] [1] [] [] wf).rhsIdx j _ 1).val = (j 1).val
      unfold DotDims.rhsIdx
      rw [dif_neg (show ¬ (1 : Fin 2) ∈ ([] : List (Fin 2)) from List.not_mem_nil),
        dif_pos (show (1 : Fin 2) ∈ ([1] : List (Fin 2)) from List.mem_singleton.mpr rfl)]
      rfl)
  exact congrArg₂ (fun a b => lhs a * rhs b) el er

/-- A kernel-side matrix product into the zero accumulator, at the ideal values, is the row-by-column sum. -/
theorem matmul_zero_apply {M K N : Nat} {φ₁ φ₂ : FTy} (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = [])
    (prec : Option ContractPrecision)
    (lhs : FVec Ideal ⟨2, ![M, K]⟩ φ₁) (rhs : FVec Ideal ⟨2, ![K, N]⟩ φ₂) (j : (⟨2, ![M, N]⟩ : Shape).Idx) :
    matmul d prec lhs rhs (constant ⟨2, ![M, N]⟩ .f32 0x00000000#32) j
      = ∑ k : Fin K, lhs (ix2 (j 0) k) * rhs (ix2 k (j 1)) :=
  (Ideal.matmul_constant_zero_apply d prec lhs rhs j).trans (contr_sum d hlc hrc hln hrn hlb hrb lhs rhs j)

/-- A host-side matrix product, at the ideal values, is the same row-by-column sum. -/
theorem dotGeneral_apply {M K N : Nat} {φ₁ φ₂ : FTy} (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = [])
    (prec : Option ContractPrecision)
    (lhs : FVec Ideal ⟨2, ![M, K]⟩ φ₁) (rhs : FVec Ideal ⟨2, ![K, N]⟩ φ₂) (j : (⟨2, ![M, N]⟩ : Shape).Idx) :
    Host.dotGeneral d prec lhs rhs j = ∑ k : Fin K, lhs (ix2 (j 0) k) * rhs (ix2 k (j 1)) := by
  simp only [Host.dotGeneral]
  exact (Ideal.dotGeneral_apply d prec _ lhs rhs j).trans (contr_sum d hlc hrc hln hrn hlb hrb lhs rhs j)

/-- The same two facts at an index given by its two coordinates. -/
theorem matmul_zero_ix2 {M K N : Nat} {φ₁ φ₂ : FTy} (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = [])
    (prec : Option ContractPrecision)
    (lhs : FVec Ideal ⟨2, ![M, K]⟩ φ₁) (rhs : FVec Ideal ⟨2, ![K, N]⟩ φ₂) (p : Fin M) (q : Fin N) :
    matmul d prec lhs rhs (constant ⟨2, ![M, N]⟩ .f32 0x00000000#32) (ix2 p q)
      = ∑ k : Fin K, lhs (ix2 p k) * rhs (ix2 k q) :=
  matmul_zero_apply d hlc hrc hln hrn hlb hrb prec lhs rhs (ix2 p q)

theorem dotGeneral_ix2 {M K N : Nat} {φ₁ φ₂ : FTy} (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = [])
    (prec : Option ContractPrecision)
    (lhs : FVec Ideal ⟨2, ![M, K]⟩ φ₁) (rhs : FVec Ideal ⟨2, ![K, N]⟩ φ₂) (p : Fin M) (q : Fin N) :
    Host.dotGeneral d prec lhs rhs (ix2 p q) = ∑ k : Fin K, lhs (ix2 p k) * rhs (ix2 k q) :=
  dotGeneral_apply d hlc hrc hln hrn hlb hrb prec lhs rhs (ix2 p q)

end Idealize.ShloMosaic.DotRows

end
-- ==== Proof.KernelRow.lean ====
/-
  The body's stored value is the specification, row by row.

  The body computes a block of 8192 rows at once.  Each of its seven linear stages is a product of a block
  of rows with the transpose of a weight block, accumulated from zero, plus a bias row repeated down the
  rows; read at entry (p, j) it is the sum over k of  left (p, k) · weight (j, k),  plus  bias j  — entry j
  of the row  x·Wᵀ + b  for x the p-th row of the left block.  A maximum against the repeated zero word is
  the maximum with zero entry by entry, the logistic function acts entry by entry, and blocks laid side by
  side along the columns read, at (p, l), the piece whose span of columns holds l.  Composing these, entry
  (p, q) of the stored block depends on row p of the two activation blocks only, and is entry q of the
  specification's output row of that row.  Every sum runs over k in increasing order with the activation as
  the left factor, so the equalities hold on all extended reals.
-/
import proofs.«158515_j64811056496793_1_alg».proof.Proof.Gen.KernelIdeal.Skeleton
import proofs.«158515_j64811056496793_1_alg».proof.Proof.Spec
import proofs.«158515_j64811056496793_1_alg».proof.Proof.LibDotRows
import Idealize.ShloMosaic.Lib.Pipeline.Value

noncomputable section
open Idealize.ShloMosaic Idealize.ShloMosaic.ValueIdx

namespace Cert.KernelRow
open Cert.KernelIdeal Cert.KernelIdeal.Gen
open Cert.Spec (lin relu cat2 cat4)

/-! ## One stage at a time, over generic blocks -/

/-- A product of an M×K block with a K×N block into the zero accumulator, plus a bias row [1, N] repeated
    down the rows, at entry (p, j): the sum over k of left (p, k) · right (k, j), plus bias j. -/
theorem linear_stage_rhs {M K N : Nat}
    (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = [])
    (x : FVec Ideal ⟨2, ![M, K]⟩ .f32) (R : FVec Ideal ⟨2, ![K, N]⟩ .f32) (b : FVec Ideal ⟨2, ![1, N]⟩ .f32)
    (hS : (⟨2, ![1, N]⟩ : Shape).ShapeCasts ⟨2, ![1, N]⟩)
    (hB : (⟨2, ![1, N]⟩ : Shape).Broadcasts ⟨2, ![M, N]⟩)
    (p : Fin M) (j : Fin N) :
    addf (matmul d none x R (constant ⟨2, ![M, N]⟩ .f32 0x00000000#32))
        (broadcastTo ⟨2, ![M, N]⟩ (shapeCast ⟨2, ![1, N]⟩ b hS) hB) (ix2 p j)
      = lin (fun j k => R (ix2 k j)) (fun j => b (ix2 (0 : Fin 1) j)) (fun k => x (ix2 p k)) j := by
  show matmul d none x R (constant ⟨2, ![M, N]⟩ .f32 0x00000000#32) (ix2 p j)
      + broadcastTo ⟨2, ![M, N]⟩ (shapeCast ⟨2, ![1, N]⟩ b hS) hB (ix2 p j)
      = (∑ k : Fin K, x (ix2 p k) * R (ix2 k j)) + b (ix2 (0 : Fin 1) j)
  refine congrArg₂ (· + ·) ?_ ?_
  · exact DotRows.matmul_zero_ix2 d hlc hrc hln hrn hlb hrb none x R p j
  · rw [shapeCast_self]
    refine broadcastTo_apply b hB (ix2 p j) (ix2 (0 : Fin 1) j) fun a => ?_
    match a with
    | ⟨0, _⟩ => rfl
    | ⟨1, _⟩ =>
      show j.val = if N = 1 then 0 else j.val
      split
      · have := j.isLt; omega
      · rfl

/-- The same with the right operand given as the transpose of an N×K weight block: the row x·Wᵀ + b. -/
theorem linear_stage {M K N : Nat}
    (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = [])
    (x : FVec Ideal ⟨2, ![M, K]⟩ .f32) (W : FVec Ideal ⟨2, ![N, K]⟩ .f32) (b : FVec Ideal ⟨2, ![1, N]⟩ .f32)
    (hT : (⟨2, ![N, K]⟩ : Shape).Transposes [1, 0] ⟨2, ![K, N]⟩)
    (hS : (⟨2, ![1, N]⟩ : Shape).ShapeCasts ⟨2, ![1, N]⟩)
    (hB : (⟨2, ![1, N]⟩ : Shape).Broadcasts ⟨2, ![M, N]⟩)
    (p : Fin M) (j : Fin N) :
    addf (matmul d none x (transpose ⟨2, ![K, N]⟩ [1, 0] W hT) (constant ⟨2, ![M, N]⟩ .f32 0x00000000#32))
        (broadcastTo ⟨2, ![M, N]⟩ (shapeCast ⟨2, ![1, N]⟩ b hS) hB) (ix2 p j)
      = lin (fun j k => W (ix2 j k)) (fun j => b (ix2 (0 : Fin 1) j)) (fun k => x (ix2 p k)) j := by
  refine (linear_stage_rhs d hlc hrc hln hrn hlb hrb x _ b hS hB p j).trans ?_
  refine congrArg (fun w : Fin N → Fin K → EReal => lin w (fun j => b (ix2 (0 : Fin 1) j)) (fun k => x (ix2 p k)) j) ?_
  funext j' k
  refine transpose_apply [1, 0] W hT (ix2 k j') (ix2 j' k) fun a => ?_
  match a with
  | ⟨0, _⟩ => rfl
  | ⟨1, _⟩ => rfl

/-- The maximum against the repeated zero word, at an index. -/
theorem relu_stage {s : Shape} (y : FVec Ideal s .f32) (i : s.Idx) (t : EReal) (h : y i = t) :
    maximumf y (broadcast s (Scalar.ofBits .f32 0x00000000#32)) i = relu t := by
  subst h; rfl

/-- The logistic function, at an index. -/
theorem logistic_stage {s : Shape} (y : FVec Ideal s .f32) (i : s.Idx) (t : EReal) (h : y i = t) :
    logistic y i = Ideal.logistic t := by
  subst h; rfl

/-- An entrywise product, at an index. -/
theorem mul_stage {s : Shape} (a b : FVec Ideal s .f32) (i : s.Idx) (ta tb : EReal) (ha : a i = ta) (hb : b i = tb) :
    mulf a b i = ta * tb := by
  subst ha hb; rfl

/-- Two blocks of 48 columns side by side, at (p, l): row p of the first then row p of the second. -/
theorem cat2_stage (x1 x2 : FVec Ideal S8192x48 .f32)
    (h : Shape.Concatenates [S8192x48, S8192x48] S8192x96 1)
    (a b : Fin 48 → EReal) (p : Fin 8192)
    (h1 : ∀ j, x1 (ix2 p j) = a j) (h2 : ∀ j, x2 (ix2 p j) = b j) (l : Fin 96) :
    concatenate S8192x96 1 [⟨S8192x48, x1⟩, ⟨S8192x48, x2⟩] h (ix2 p l) = cat2 a b l := by
  unfold cat2
  split
  · next hl =>
    refine (concatenate_pair_apply_left 1 x1 x2 h (ix2 p l) rfl (ix2 p ⟨l.val, hl⟩) fun c => ?_).trans (h1 _)
    match c with
    | ⟨0, _⟩ => rfl
    | ⟨1, _⟩ => rfl
  · next hl =>
    refine (concatenate_pair_apply_right 1 x1 x2 h (ix2 p l) rfl rfl
      (ix2 p ⟨l.val - 48, by have := l.isLt; omega⟩) (fun c hc => ?_) ?_).trans (h2 _)
    · match c, hc with
      | ⟨0, _⟩, _ => rfl
      | ⟨1, _⟩, hc => exact absurd rfl hc
    · show (l.val - 48) + 48 = l.val
      omega

/-- Blocks of 48, 48, 24 and 24 columns side by side, at (p, l). -/
theorem cat4_stage (x1 x2 : FVec Ideal S8192x48 .f32) (x3 x4 : FVec Ideal S8192x24 .f32)
    (h : Shape.Concatenates [S8192x48, S8192x48, S8192x24, S8192x24] S8192x144 1)
    (a b : Fin 48 → EReal) (c d : Fin 24 → EReal) (p : Fin 8192)
    (h1 : ∀ j, x1 (ix2 p j) = a j) (h2 : ∀ j, x2 (ix2 p j) = b j)
    (h3 : ∀ j, x3 (ix2 p j) = c j) (h4 : ∀ j, x4 (ix2 p j) = d j) (l : Fin 144) :
    concatenate S8192x144 1 [⟨S8192x48, x1⟩, ⟨S8192x48, x2⟩, ⟨S8192x24, x3⟩, ⟨S8192x24, x4⟩] h (ix2 p l)
      = cat4 a b c d l := by
  unfold cat4
  split
  · next hl =>
    refine (concatenate_apply_piece 1 [⟨S8192x48, x1⟩, ⟨S8192x48, x2⟩, ⟨S8192x24, x3⟩, ⟨S8192x24, x4⟩] h (ix2 p l)
      0 (by show (0 : Nat) < 4; decide) S8192x48 x1 rfl rfl 0 rfl (ix2 p ⟨l.val, hl⟩) (fun e he => ?_) ?_).trans (h1 _)
    · match e, he with
      | ⟨0, _⟩, _ => rfl
      | ⟨1, _⟩, he => exact absurd rfl he
    · show 0 + l.val = l.val
      omega
  · next hl =>
    split
    · next hl2 =>
      refine (concatenate_apply_piece 1 [⟨S8192x48, x1⟩, ⟨S8192x48, x2⟩, ⟨S8192x24, x3⟩, ⟨S8192x24, x4⟩] h (ix2 p l)
        1 (by show (1 : Nat) < 4; decide) S8192x48 x2 rfl rfl 48 rfl (ix2 p ⟨l.val - 48, by omega⟩) (fun e he => ?_) ?_).trans (h2 _)
      · match e, he with
        | ⟨0, _⟩, _ => rfl
        | ⟨1, _⟩, he => exact absurd rfl he
      · show 48 + (l.val - 48) = l.val
        omega
    · next hl2 =>
      split
      · next hl3 =>
        refine (concatenate_apply_piece 1 [⟨S8192x48, x1⟩, ⟨S8192x48, x2⟩, ⟨S8192x24, x3⟩, ⟨S8192x24, x4⟩] h (ix2 p l)
          2 (by show (2 : Nat) < 4; decide) S8192x24 x3 rfl rfl 96 rfl (ix2 p ⟨l.val - 96, by omega⟩) (fun e he => ?_) ?_).trans (h3 _)
        · match e, he with
          | ⟨0, _⟩, _ => rfl
          | ⟨1, _⟩, he => exact absurd rfl he
        · show 96 + (l.val - 96) = l.val
          omega
      · next hl3 =>
        refine (concatenate_apply_piece 1 [⟨S8192x48, x1⟩, ⟨S8192x48, x2⟩, ⟨S8192x24, x3⟩, ⟨S8192x24, x4⟩] h (ix2 p l)
          3 (by show (3 : Nat) < 4; decide) S8192x24 x4 rfl rfl 120 rfl (ix2 p ⟨l.val - 120, by have := l.isLt; omega⟩) (fun e he => ?_) ?_).trans (h4 _)
        · match e, he with
          | ⟨0, _⟩, _ => rfl
          | ⟨1, _⟩, he => exact absurd rfl he
        · show 120 + (l.val - 120) = l.val
          omega

/-! ## The body's values, entry by entry -/

/-- The text rows' 48-wide projection, at (p, j). -/
theorem pay2_apply (v1 : Vec Ideal S8192x20 .f32) (v2 : Vec Ideal S48x20 .f32) (v5 : Vec Ideal S1x48 .f32)
    (p : Fin 8192) (j : Fin 48) :
    k0_pay2 (F := Ideal) v1 v2 v5 (ix2 p j)
      = lin (fun j k => v2 (ix2 j k)) (fun j => v5 (ix2 (0 : Fin 1) j)) (fun k => v1 (ix2 p k)) j := by
  unfold k0_pay2
  exact linear_stage dot_S8192x20_S20x48_S8192x48_1_0_0_1_n_n rfl rfl rfl rfl rfl rfl v1 v2 v5 _ _ _ p j

/-- The image rows' 48-wide projection, at (p, j). -/
theorem pay3_apply (v0 : Vec Ideal S8192x40 .f32) (v9 : Vec Ideal S48x40 .f32) (v12 : Vec Ideal S1x48 .f32)
    (p : Fin 8192) (j : Fin 48) :
    k0_pay3 (F := Ideal) v0 v9 v12 (ix2 p j)
      = lin (fun j k => v9 (ix2 j k)) (fun j => v12 (ix2 (0 : Fin 1) j)) (fun k => v0 (ix2 p k)) j := by
  unfold k0_pay3
  exact linear_stage dot_S8192x40_S40x48_S8192x48_1_0_0_1_n_n rfl rfl rfl rfl rfl rfl v0 v9 v12 _ _ _ p j

/-- The four projections side by side, at (p, l): the 144-entry row the first hidden layer reads. -/
theorem pay4_apply (v0 : Vec Ideal S8192x40 .f32) (v1 : Vec Ideal S8192x20 .f32)
    (v2 : Vec Ideal S48x20 .f32) (v5 : Vec Ideal S1x48 .f32)
    (v9 : Vec Ideal S48x40 .f32) (v12 : Vec Ideal S1x48 .f32)
    (v16 : Vec Ideal S24x40 .f32) (v19 : Vec Ideal S1x24 .f32)
    (v23 : Vec Ideal S24x20 .f32) (v26 : Vec Ideal S1x24 .f32)
    (p : Fin 8192) (l : Fin 144) :
    k0_pay4 (F := Ideal) v0 v1 v2 v5 v9 v12 v16 v19 v23 v26 (ix2 p l)
      = cat4 (lin (fun j k => v2 (ix2 j k)) (fun j => v5 (ix2 (0 : Fin 1) j)) (fun k => v1 (ix2 p k)))
          (lin (fun j k => v9 (ix2 j k)) (fun j => v12 (ix2 (0 : Fin 1) j)) (fun k => v0 (ix2 p k)))
          (lin (fun j k => v16 (ix2 j k)) (fun j => v19 (ix2 (0 : Fin 1) j)) (fun k => v0 (ix2 p k)))
          (lin (fun j k => v23 (ix2 j k)) (fun j => v26 (ix2 (0 : Fin 1) j)) (fun k => v1 (ix2 p k))) l := by
  unfold k0_pay4
  exact cat4_stage _ _ _ _ _ _ _ _ _ p
    (fun j => pay2_apply v1 v2 v5 p j) (fun j => pay3_apply v0 v9 v12 p j)
    (fun j => linear_stage dot_S8192x40_S40x24_S8192x24_1_0_0_1_n_n rfl rfl rfl rfl rfl rfl v0 v16 v19 _ _ _ p j)
    (fun j => linear_stage dot_S8192x20_S20x24_S8192x24_1_0_0_1_n_n rfl rfl rfl rfl rfl rfl v1 v23 v26 _ _ _ p j) l

/-- The first hidden layer's weight block transposed, at (k, j). -/
theorem pay5_apply (v31 : Vec Ideal S48x144 .f32) (k : Fin 144) (j : Fin 48) :
    k0_pay5 (F := Ideal) v31 (ix2 k j) = v31 (ix2 j k) := by
  unfold k0_pay5
  refine transpose_apply [1, 0] v31 _ (ix2 k j) (ix2 j k) fun a => ?_
  match a with
  | ⟨0, _⟩ => rfl
  | ⟨1, _⟩ => rfl

/-- The stored value at (p, q), from row p of its four block arguments given entry by entry: two hidden
    layers with a maximum against zero each, times the logistic gate of the first two projections. -/
theorem pay1_apply (v8 v15 : FVec Ideal S8192x48 .f32) (v30 : FVec Ideal S8192x144 .f32) (v32 : FVec Ideal S144x48 .f32)
    (v34 : Vec Ideal S1x48 .f32) (v40 : Vec Ideal S48x48 .f32) (v43 : Vec Ideal S1x48 .f32)
    (v50 : Vec Ideal S48x96 .f32) (v53 : Vec Ideal S1x48 .f32)
    (p : Fin 8192) (a b : Fin 48 → EReal) (c : Fin 144 → EReal) (Wm1 : Fin 48 → Fin 144 → EReal)
    (h8 : ∀ j, v8 (ix2 p j) = a j) (h15 : ∀ j, v15 (ix2 p j) = b j)
    (h30 : ∀ l, v30 (ix2 p l) = c l) (h32 : ∀ k j, v32 (ix2 k j) = Wm1 j k) (q : Fin 48) :
    k0_pay1 (F := Ideal) v8 v15 v30 v32 v34 v40 v43 v50 v53 (ix2 p q)
      = relu (lin (fun j k => v40 (ix2 j k)) (fun j => v43 (ix2 (0 : Fin 1) j))
            (fun k => relu (lin Wm1 (fun j => v34 (ix2 (0 : Fin 1) j)) c k)) q)
          * Ideal.logistic (lin (fun j k => v50 (ix2 j k)) (fun j => v53 (ix2 (0 : Fin 1) j)) (cat2 a b) q) := by
  unfold k0_pay1
  refine mul_stage _ _ _ _ _ ?_ ?_
  · refine relu_stage _ _ _ ?_
    refine (linear_stage dot_S8192x48_S48x48_S8192x48_1_0_0_1_n_n rfl rfl rfl rfl rfl rfl _ v40 v43 _ _ _ p q).trans ?_
    refine congrArg (fun f : Fin 48 → EReal => lin (fun j k => v40 (ix2 j k)) (fun j => v43 (ix2 (0 : Fin 1) j)) f q) ?_
    funext k
    refine relu_stage _ _ _ ?_
    refine (linear_stage_rhs dot_S8192x144_S144x48_S8192x48_1_0_0_1_n_n rfl rfl rfl rfl rfl rfl v30 v32 v34 _ _ p k).trans ?_
    have e1 : (fun (j : Fin 48) (k : Fin 144) => v32 (ix2 k j)) = Wm1 := funext fun j => funext fun k => h32 k j
    have e2 : (fun l : Fin 144 => v30 (ix2 p l)) = c := funext fun l => h30 l
    rw [e1, e2]
  · refine logistic_stage _ _ _ ?_
    refine (linear_stage dot_S8192x96_S96x48_S8192x48_1_0_0_1_n_n rfl rfl rfl rfl rfl rfl _ v50 v53 _ _ _ p q).trans ?_
    refine congrArg (fun f : Fin 96 → EReal => lin (fun j k => v50 (ix2 j k)) (fun j => v53 (ix2 (0 : Fin 1) j)) f q) ?_
    funext l
    exact cat2_stage v8 v15 _ a b p h8 h15 l

/-- Entry (p, q) of the value the body stores is entry q of the specification's output row of row p of
    the two activation blocks. -/
theorem pay_ix2
    (v0 : Vec Ideal S8192x40 .f32) (v1 : Vec Ideal S8192x20 .f32)
    (v2 : Vec Ideal S48x20 .f32) (v5 : Vec Ideal S1x48 .f32)
    (v9 : Vec Ideal S48x40 .f32) (v12 : Vec Ideal S1x48 .f32)
    (v16 : Vec Ideal S24x40 .f32) (v19 : Vec Ideal S1x24 .f32)
    (v23 : Vec Ideal S24x20 .f32) (v26 : Vec Ideal S1x24 .f32)
    (v31 : Vec Ideal S48x144 .f32) (v34 : Vec Ideal S1x48 .f32)
    (v40 : Vec Ideal S48x48 .f32) (v43 : Vec Ideal S1x48 .f32)
    (v50 : Vec Ideal S48x96 .f32) (v53 : Vec Ideal S1x48 .f32)
    (p : Fin 8192) (q : Fin 48) :
    k0_pay1 (F := Ideal) (k0_pay2 v1 v2 v5) (k0_pay3 v0 v9 v12) (k0_pay4 v0 v1 v2 v5 v9 v12 v16 v19 v23 v26)
        (k0_pay5 v31) v34 v40 v43 v50 v53 (ix2 p q)
      = Cert.Spec.rowOut (fun k => v0 (ix2 p k)) (fun k => v1 (ix2 p k))
          (fun j k => v2 (ix2 j k)) (fun j => v5 (ix2 (0 : Fin 1) j))
          (fun j k => v9 (ix2 j k)) (fun j => v12 (ix2 (0 : Fin 1) j))
          (fun j k => v16 (ix2 j k)) (fun j => v19 (ix2 (0 : Fin 1) j))
          (fun j k => v23 (ix2 j k)) (fun j => v26 (ix2 (0 : Fin 1) j))
          (fun j k => v31 (ix2 j k)) (fun j => v34 (ix2 (0 : Fin 1) j))
          (fun j k => v40 (ix2 j k)) (fun j => v43 (ix2 (0 : Fin 1) j))
          (fun j k => v50 (ix2 j k)) (fun j => v53 (ix2 (0 : Fin 1) j)) q :=
  pay1_apply (k0_pay2 v1 v2 v5) (k0_pay3 v0 v9 v12) (k0_pay4 v0 v1 v2 v5 v9 v12 v16 v19 v23 v26) (k0_pay5 v31)
    v34 v40 v43 v50 v53 p _ _ _ (fun j k => v31 (ix2 j k))
    (fun j => pay2_apply v1 v2 v5 p j) (fun j => pay3_apply v0 v9 v12 p j)
    (fun l => pay4_apply v0 v1 v2 v5 v9 v12 v16 v19 v23 v26 p l) (fun k j => pay5_apply v31 k j) q

end Cert.KernelRow
end
-- ==== Proof.RefRow.lean ====
/-
  The reference computes the specification, entry by entry.

  Every stage of the reference is read at one entry (r, j) of its result.  A linear stage — the product of an
  array of rows with the transpose of a weight array, plus the bias row repeated down the rows — is at (r, j)
  the sum over k of  x (r, k) · W (j, k),  plus  b j :  the transposed weight array at (k, j) is W at (j, k),
  and the repeated bias at (r, j) is b at j.  A concatenation along the columns reads, at column l, the piece
  whose span of columns holds l, at l less the widths of the pieces before it.  The maximum with an array of
  zeros is the maximum with the zero word, and  1 / (1 + exp (−y))  with the word of 1.0 for one is the
  logistic function of y.  Composing the stages in the reference's order gives the specification's output
  row of row r at entry j; no sum is reordered and no factor swapped.
-/
import proofs.«158515_j64811056496793_1_alg».proof.Proof.Gen.ReferenceIdeal.Read
import proofs.«158515_j64811056496793_1_alg».proof.Proof.Spec
import proofs.«158515_j64811056496793_1_alg».proof.Proof.LibDotRows
import Idealize.ShloMosaic.Lib.IdealHost

noncomputable section

open Idealize.ShloMosaic Idealize.ShloMosaic.ValueIdx

namespace Cert.RefRow

open Cert.ReferenceIdeal Cert.ReferenceIdeal.Gen Cert.ReferenceIdeal.Read

/-- One linear stage of the reference at entry (p, q): the product with the transposed weight array plus the
    bias row repeated down the rows is the sum over k of x (p, k) · W (q, k), plus b q. -/
theorem host_lin {M K N : Nat} (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = [])
    (hT : (⟨2, ![N, K]⟩ : Shape).Transposes [1, 0] ⟨2, ![K, N]⟩)
    (hb1 : (⟨1, ![N]⟩ : Shape).BroadcastsInDim ⟨2, ![1, N]⟩ (![1] : Fin 1 → Fin 2))
    (hb2 : (⟨2, ![1, N]⟩ : Shape).BroadcastsInDim ⟨2, ![M, N]⟩ (![0, 1] : Fin 2 → Fin 2))
    (x : FVec Ideal ⟨2, ![M, K]⟩ .f32) (W : FVec Ideal ⟨2, ![N, K]⟩ .f32) (b : FVec Ideal ⟨1, ![N]⟩ .f32)
    (p : Fin M) (q : Fin N) :
    addf (Host.dotGeneral d none x (transpose ⟨2, ![K, N]⟩ [1, 0] W hT))
        (broadcastInDim ⟨2, ![M, N]⟩ ![0, 1] hb2 (broadcastInDim ⟨2, ![1, N]⟩ ![1] hb1 b)) (ix2 p q)
      = Cert.Spec.lin (fun j k => W (ix2 j k)) (fun j => b (ix1 j)) (fun k => x (ix2 p k)) q := by
  unfold Cert.Spec.lin
  rw [addf_apply, DotRows.dotGeneral_ix2 d hlc hrc hln hrn hlb hrb]
  have eT : ∀ k : Fin K, transpose ⟨2, ![K, N]⟩ [1, 0] W hT (ix2 k q) = W (ix2 q k) := fun k =>
    transpose_apply [1, 0] W hT (ix2 k q) (ix2 q k) (fun b => match b with
      | ⟨0, _⟩ => rfl
      | ⟨1, _⟩ => rfl)
  have eB : broadcastInDim ⟨2, ![M, N]⟩ ![0, 1] hb2 (broadcastInDim ⟨2, ![1, N]⟩ ![1] hb1 b) (ix2 p q) = b (ix1 q) := by
    have hq : q.val < N := q.isLt
    refine (broadcastInDim_apply _ hb2 _ (ix2 p q) (ix2 (0 : Fin 1) q) (fun a => match a with
      | ⟨0, _⟩ => by show 0 = if (1 : Nat) = 1 then 0 else p.val; rw [if_pos rfl]
      | ⟨1, _⟩ => by show q.val = if N = 1 then 0 else q.val; split <;> omega)).trans ?_
    exact broadcastInDim_apply _ hb1 b (ix2 (0 : Fin 1) q) (ix1 q) (fun a => match a with
      | ⟨0, _⟩ => by show q.val = if N = 1 then 0 else q.val; split <;> omega)
  rw [eB]
  exact congrArg (· + b (ix1 q)) (Finset.sum_congr rfl fun k _ => by rw [eT k])

/-- Four pieces of widths 48, 48, 24, 24 joined along the columns, read at (r, l). -/
theorem cat4_at (h : Shape.Concatenates [S262144x48, S262144x48, S262144x24, S262144x24] S262144x144 1)
    (y4 y9 : S262144x48.Idx → EReal) (y14 y19 : S262144x24.Idx → EReal) (r : Fin 262144) (l : Fin 144) :
    concatenate S262144x144 1 [⟨S262144x48, y4⟩, ⟨S262144x48, y9⟩, ⟨S262144x24, y14⟩, ⟨S262144x24, y19⟩] h (ix2 r l)
      = Cert.Spec.cat4 (fun j => y4 (ix2 r j)) (fun j => y9 (ix2 r j)) (fun j => y14 (ix2 r j)) (fun j => y19 (ix2 r j)) l := by
  have hl := l.isLt
  unfold Cert.Spec.cat4
  split
  · next h1 =>
    exact concatenate_apply_piece (t := S262144x144) 1 [⟨S262144x48, y4⟩, ⟨S262144x48, y9⟩, ⟨S262144x24, y14⟩, ⟨S262144x24, y19⟩] h (ix2 r l) 0 (by show _ < 4; omega) S262144x48 y4 rfl rfl 0 rfl (ix2 r ⟨l.val, h1⟩)
      (fun b hb => match b with
        | ⟨0, _⟩ => rfl
        | ⟨1, _⟩ => absurd rfl hb)
      (by show 0 + l.val = l.val; omega)
  · next h1 =>
    split
    · next h2 =>
      exact concatenate_apply_piece (t := S262144x144) 1 [⟨S262144x48, y4⟩, ⟨S262144x48, y9⟩, ⟨S262144x24, y14⟩, ⟨S262144x24, y19⟩] h (ix2 r l) 1 (by show _ < 4; omega) S262144x48 y9 rfl rfl 48 rfl (ix2 r ⟨l.val - 48, by omega⟩)
        (fun b hb => match b with
          | ⟨0, _⟩ => rfl
          | ⟨1, _⟩ => absurd rfl hb)
        (by show 48 + (l.val - 48) = l.val; omega)
    · next h2 =>
      split
      · next h3 =>
        exact concatenate_apply_piece (t := S262144x144) 1 [⟨S262144x48, y4⟩, ⟨S262144x48, y9⟩, ⟨S262144x24, y14⟩, ⟨S262144x24, y19⟩] h (ix2 r l) 2 (by show _ < 4; omega) S262144x24 y14 rfl rfl 96 rfl (ix2 r ⟨l.val - 96, by omega⟩)
          (fun b hb => match b with
            | ⟨0, _⟩ => rfl
            | ⟨1, _⟩ => absurd rfl hb)
          (by show 96 + (l.val - 96) = l.val; omega)
      · next h3 =>
        exact concatenate_apply_piece (t := S262144x144) 1 [⟨S262144x48, y4⟩, ⟨S262144x48, y9⟩, ⟨S262144x24, y14⟩, ⟨S262144x24, y19⟩] h (ix2 r l) 3 (by show _ < 4; omega) S262144x24 y19 rfl rfl 120 rfl (ix2 r ⟨l.val - 120, by omega⟩)
          (fun b hb => match b with
            | ⟨0, _⟩ => rfl
            | ⟨1, _⟩ => absurd rfl hb)
          (by show 120 + (l.val - 120) = l.val; omega)

section Stages

variable (x0 : (⟨S262144x40, .f32⟩ : BufTy).Contents (Elt Ideal)) (x1 : (⟨S262144x20, .f32⟩ : BufTy).Contents (Elt Ideal))
  (x6 : (⟨S48x20, .f32⟩ : BufTy).Contents (Elt Ideal)) (x7 : (⟨S48, .f32⟩ : BufTy).Contents (Elt Ideal))
  (x12 : (⟨S48x40, .f32⟩ : BufTy).Contents (Elt Ideal)) (x13 : (⟨S48, .f32⟩ : BufTy).Contents (Elt Ideal))
  (x18 : (⟨S24x40, .f32⟩ : BufTy).Contents (Elt Ideal)) (x19 : (⟨S24, .f32⟩ : BufTy).Contents (Elt Ideal))
  (x24 : (⟨S24x20, .f32⟩ : BufTy).Contents (Elt Ideal)) (x25 : (⟨S24, .f32⟩ : BufTy).Contents (Elt Ideal))
  (x26 : (⟨S48x144, .f32⟩ : BufTy).Contents (Elt Ideal)) (x27 : (⟨S48, .f32⟩ : BufTy).Contents (Elt Ideal))
  (x28 : (⟨S48x48, .f32⟩ : BufTy).Contents (Elt Ideal)) (x29 : (⟨S48, .f32⟩ : BufTy).Contents (Elt Ideal))
  (x30 : (⟨S48x96, .f32⟩ : BufTy).Contents (Elt Ideal)) (x31 : (⟨S48, .f32⟩ : BufTy).Contents (Elt Ideal))
  (r : Fin 262144)

/-- The image-side cross projection: the text row through the first value projection. -/
theorem v4_at (j : Fin 48) :
    val_main_v4 (F := Ideal) x1 x6 x7 (ix2 r j)
      = Cert.Spec.lin (fun j k => x6 (ix2 j k)) (fun j => x7 (ix1 j)) (fun k => x1 (ix2 r k)) j := by
  unfold val_main_v4 val_main_v1 val_main_v3 val_main_v2 val_main_v0
  exact host_lin dot_S262144x20_S20x48_S262144x48_1_0_0_1_n_n rfl rfl rfl rfl rfl rfl _ _ _ x1 x6 x7 r j

/-- The text-side cross projection: the image row through the second value projection. -/
theorem v9_at (j : Fin 48) :
    val_main_v9 (F := Ideal) x0 x12 x13 (ix2 r j)
      = Cert.Spec.lin (fun j k => x12 (ix2 j k)) (fun j => x13 (ix1 j)) (fun k => x0 (ix2 r k)) j := by
  unfold val_main_v9 val_main_v6 val_main_v8 val_main_v7 val_main_v5
  exact host_lin dot_S262144x40_S40x48_S262144x48_1_0_0_1_n_n rfl rfl rfl rfl rfl rfl _ _ _ x0 x12 x13 r j

/-- The image row's own projection (24 entries). -/
theorem v14_at (j : Fin 24) :
    val_main_v14 (F := Ideal) x0 x18 x19 (ix2 r j)
      = Cert.Spec.lin (fun j k => x18 (ix2 j k)) (fun j => x19 (ix1 j)) (fun k => x0 (ix2 r k)) j := by
  unfold val_main_v14 val_main_v11 val_main_v13 val_main_v12 val_main_v10
  exact host_lin dot_S262144x40_S40x24_S262144x24_1_0_0_1_n_n rfl rfl rfl rfl rfl rfl _ _ _ x0 x18 x19 r j

/-- The text row's own projection (24 entries). -/
theorem v19_at (j : Fin 24) :
    val_main_v19 (F := Ideal) x1 x24 x25 (ix2 r j)
      = Cert.Spec.lin (fun j k => x24 (ix2 j k)) (fun j => x25 (ix1 j)) (fun k => x1 (ix2 r k)) j := by
  unfold val_main_v19 val_main_v16 val_main_v18 val_main_v17 val_main_v15
  exact host_lin dot_S262144x20_S20x24_S262144x24_1_0_0_1_n_n rfl rfl rfl rfl rfl rfl _ _ _ x1 x24 x25 r j

/-- The 144-entry row: the four projections of row r laid end to end. -/
theorem v20_at (l : Fin 144) :
    val_main_v20 (F := Ideal) x0 x1 x6 x7 x12 x13 x18 x19 x24 x25 (ix2 r l)
      = Cert.Spec.cat4 (fun j => val_main_v4 (F := Ideal) x1 x6 x7 (ix2 r j)) (fun j => val_main_v9 (F := Ideal) x0 x12 x13 (ix2 r j))
          (fun j => val_main_v14 (F := Ideal) x0 x18 x19 (ix2 r j)) (fun j => val_main_v19 (F := Ideal) x1 x24 x25 (ix2 r j)) l := by
  unfold val_main_v20
  generalize val_main_v4 (F := Ideal) x1 x6 x7 = y4
  generalize val_main_v9 (F := Ideal) x0 x12 x13 = y9
  generalize val_main_v14 (F := Ideal) x0 x18 x19 = y14
  generalize val_main_v19 (F := Ideal) x1 x24 x25 = y19
  exact cat4_at _ y4 y9 y14 y19 r l

/-- The hidden row before its maximum with zero: the 144-entry row through the first layer. -/
theorem v25_at (k : Fin 48) :
    val_main_v25 (F := Ideal) x0 x1 x6 x7 x12 x13 x18 x19 x24 x25 x26 x27 (ix2 r k)
      = Cert.Spec.lin (fun j k => x26 (ix2 j k)) (fun j => x27 (ix1 j))
          (fun l => val_main_v20 (F := Ideal) x0 x1 x6 x7 x12 x13 x18 x19 x24 x25 (ix2 r l)) k := by
  unfold val_main_v25 val_main_v22 val_main_v24 val_main_v23 val_main_v21
  generalize val_main_v20 (F := Ideal) x0 x1 x6 x7 x12 x13 x18 x19 x24 x25 = y
  exact host_lin dot_S262144x144_S144x48_S262144x48_1_0_0_1_n_n rfl rfl rfl rfl rfl rfl _ _ _ y x26 x27 r k

/-- The maximum with the array of zeros, at an index, is the maximum with the zero word. -/
theorem relu0_at (y : FVec Ideal S262144x48 .f32) (i : S262144x48.Idx) :
    (maximumf y (val_main_call0_v0 (F := Ideal)) : FVec Ideal S262144x48 .f32) i = Cert.Spec.relu (y i) := by
  rw [maximumf_apply, val_main_call0_v0_apply, val_main_call0_cst_apply]
  rfl

theorem relu1_at (y : FVec Ideal S262144x48 .f32) (i : S262144x48.Idx) :
    (maximumf y (val_main_call1_v0 (F := Ideal)) : FVec Ideal S262144x48 .f32) i = Cert.Spec.relu (y i) := by
  rw [maximumf_apply, val_main_call1_v0_apply, val_main_call1_cst_apply]
  rfl

/-- The hidden row. -/
theorem v26_at (k : Fin 48) :
    val_main_v26 (F := Ideal) x0 x1 x6 x7 x12 x13 x18 x19 x24 x25 x26 x27 (ix2 r k)
      = Cert.Spec.relu (val_main_v25 (F := Ideal) x0 x1 x6 x7 x12 x13 x18 x19 x24 x25 x26 x27 (ix2 r k)) := by
  unfold val_main_v26
  exact relu0_at _ _

/-- The fused row before its maximum with zero: the hidden row through the second layer. -/
theorem v31_at (j : Fin 48) :
    val_main_v31 (F := Ideal) x0 x1 x6 x7 x12 x13 x18 x19 x24 x25 x26 x27 x28 x29 (ix2 r j)
      = Cert.Spec.lin (fun j k => x28 (ix2 j k)) (fun j => x29 (ix1 j))
          (fun k => val_main_v26 (F := Ideal) x0 x1 x6 x7 x12 x13 x18 x19 x24 x25 x26 x27 (ix2 r k)) j := by
  unfold val_main_v31 val_main_v28 val_main_v30 val_main_v29 val_main_v27
  generalize val_main_v26 (F := Ideal) x0 x1 x6 x7 x12 x13 x18 x19 x24 x25 x26 x27 = y
  exact host_lin dot_S262144x48_S48x48_S262144x48_1_0_0_1_n_n rfl rfl rfl rfl rfl rfl _ _ _ y x28 x29 r j

/-- The fused row. -/
theorem v32_at (j : Fin 48) :
    val_main_v32 (F := Ideal) x0 x1 x6 x7 x12 x13 x18 x19 x24 x25 x26 x27 x28 x29 (ix2 r j)
      = Cert.Spec.relu (val_main_v31 (F := Ideal) x0 x1 x6 x7 x12 x13 x18 x19 x24 x25 x26 x27 x28 x29 (ix2 r j)) := by
  unfold val_main_v32
  exact relu1_at _ _

/-- Two pieces of width 48 joined along the columns, read at (r, l). -/
theorem cat2_at (h : Shape.Concatenates [S262144x48, S262144x48] S262144x96 1)
    (y4 y9 : S262144x48.Idx → EReal) (r : Fin 262144) (l : Fin 96) :
    concatenate S262144x96 1 [⟨S262144x48, y4⟩, ⟨S262144x48, y9⟩] h (ix2 r l)
      = Cert.Spec.cat2 (fun j => y4 (ix2 r j)) (fun j => y9 (ix2 r j)) l := by
  have hl := l.isLt
  unfold Cert.Spec.cat2
  split
  · next h1 =>
    exact concatenate_pair_apply_left (t := S262144x96) 1 y4 y9 h (ix2 r l) rfl (ix2 r ⟨l.val, h1⟩)
      (fun b => match b with
        | ⟨0, _⟩ => rfl
        | ⟨1, _⟩ => rfl)
  · next h1 =>
    exact concatenate_pair_apply_right (t := S262144x96) 1 y4 y9 h (ix2 r l) rfl rfl (ix2 r ⟨l.val - 48, by omega⟩)
      (fun b hb => match b with
        | ⟨0, _⟩ => rfl
        | ⟨1, _⟩ => absurd rfl hb)
      (by show (l.val - 48) + 48 = l.val; omega)

/-- The gate's 96-entry input row: the two cross projections of row r laid end to end. -/
theorem v33_at (l : Fin 96) :
    val_main_v33 (F := Ideal) x0 x1 x6 x7 x12 x13 (ix2 r l)
      = Cert.Spec.cat2 (fun j => val_main_v4 (F := Ideal) x1 x6 x7 (ix2 r j)) (fun j => val_main_v9 (F := Ideal) x0 x12 x13 (ix2 r j)) l := by
  unfold val_main_v33
  generalize val_main_v4 (F := Ideal) x1 x6 x7 = y4
  generalize val_main_v9 (F := Ideal) x0 x12 x13 = y9
  exact cat2_at _ y4 y9 r l

/-- The gate's row before the sigmoid. -/
theorem v38_at (j : Fin 48) :
    val_main_v38 (F := Ideal) x0 x1 x6 x7 x12 x13 x30 x31 (ix2 r j)
      = Cert.Spec.lin (fun j k => x30 (ix2 j k)) (fun j => x31 (ix1 j))
          (fun l => val_main_v33 (F := Ideal) x0 x1 x6 x7 x12 x13 (ix2 r l)) j := by
  unfold val_main_v38 val_main_v35 val_main_v37 val_main_v36 val_main_v34
  generalize val_main_v33 (F := Ideal) x0 x1 x6 x7 x12 x13 = y
  exact host_lin dot_S262144x96_S96x48_S262144x48_1_0_0_1_n_n rfl rfl rfl rfl rfl rfl _ _ _ y x30 x31 r j

/-- One over one plus the exponential of the negation, with the word of 1.0 for one, is the logistic function. -/
theorem v44_at (i : S262144x48.Idx) :
    val_main_v44 (F := Ideal) x0 x1 x6 x7 x12 x13 x30 x31 i
      = Ideal.logistic (val_main_v38 (F := Ideal) x0 x1 x6 x7 x12 x13 x30 x31 i) := by
  rw [val_main_v44_apply, val_main_v43_apply, val_main_cst_0_apply, val_main_v42_apply, val_main_v41_apply,
    val_main_cst_apply, val_main_v40_apply, val_main_v39_apply]
  generalize val_main_v38 (F := Ideal) x0 x1 x6 x7 x12 x13 x30 x31 i = z
  rw [Ideal.ofBits_def, Ideal.ofBits_one_f32]
  rfl

end Stages

/-- The reference's result array is the specification's whole-array function of its arguments. -/
theorem ref_eq_G
    (x0 : (⟨S262144x40, .f32⟩ : BufTy).Contents (Elt Ideal)) (x1 : (⟨S262144x20, .f32⟩ : BufTy).Contents (Elt Ideal))
    (x6 : (⟨S48x20, .f32⟩ : BufTy).Contents (Elt Ideal)) (x7 : (⟨S48, .f32⟩ : BufTy).Contents (Elt Ideal))
    (x12 : (⟨S48x40, .f32⟩ : BufTy).Contents (Elt Ideal)) (x13 : (⟨S48, .f32⟩ : BufTy).Contents (Elt Ideal))
    (x18 : (⟨S24x40, .f32⟩ : BufTy).Contents (Elt Ideal)) (x19 : (⟨S24, .f32⟩ : BufTy).Contents (Elt Ideal))
    (x24 : (⟨S24x20, .f32⟩ : BufTy).Contents (Elt Ideal)) (x25 : (⟨S24, .f32⟩ : BufTy).Contents (Elt Ideal))
    (x26 : (⟨S48x144, .f32⟩ : BufTy).Contents (Elt Ideal)) (x27 : (⟨S48, .f32⟩ : BufTy).Contents (Elt Ideal))
    (x28 : (⟨S48x48, .f32⟩ : BufTy).Contents (Elt Ideal)) (x29 : (⟨S48, .f32⟩ : BufTy).Contents (Elt Ideal))
    (x30 : (⟨S48x96, .f32⟩ : BufTy).Contents (Elt Ideal)) (x31 : (⟨S48, .f32⟩ : BufTy).Contents (Elt Ideal)) :
    val_main_v45 (F := Ideal) x0 x1 x6 x7 x12 x13 x18 x19 x24 x25 x26 x27 x28 x29 x30 x31
      = Cert.Spec.G x0 x1 x6 x7 x12 x13 x18 x19 x24 x25 x26 x27 x28 x29 x30 x31 := by
  funext i
  obtain ⟨r, j, rfl⟩ : ∃ (r : Fin 262144) (j : Fin 48), i = ix2 r j := ⟨i 0, i 1, eq_ix2 i⟩
  rw [Cert.Spec.G_ix2, val_main_v45_apply, v32_at, v44_at]
  unfold Cert.Spec.rowOut
  simp only [v31_at, v26_at, v25_at, v20_at, v38_at, v33_at, v4_at, v9_at, v14_at, v19_at]
  rfl

end Cert.RefRow

end
-- ==== Proof.lean ====
/-
  A gated two-layer perceptron over fused image and text features, one row at a time: the kernel against
  its reference.

  Both programs compute, for each of 262144 rows, four projections of the row's image and text features
  (each a row times a transposed weight array plus a bias), lay them end to end, pass them through two
  linear layers each followed by a maximum with zero, and multiply the result entrywise by a logistic gate
  computed from the first two projections.  The kernel does this for 8192 rows per grid point over a grid of
  32 points; the reference on the whole arrays.  On the extended reals both are the same function of the
  arguments, written once as the specification: every sum runs over its index in the same order with the
  same left and right factors, a product into a zero accumulator and a host product are the same sum, a
  change of layout only renames indices, and the logistic function is one over one plus the exponential of
  the negation.  No law that fails at the infinities is used, so the inputs' finiteness is never opened.

  The kernel's side: the value stored at entry (p, q) of a block is the specification's output row of row p
  of the activation blocks; the blocks are rows 8192·t … 8192·t + 8191 of the arrays; the 32 output blocks
  cover the result array.  The reference's side: its result term, read one operation at a time at entry
  (r, j), is the specification's output row of row r.  The three frame claims are the generated runs; the
  idealization rewrote nothing, so its claim is trivial.
-/
import proofs.«158515_j64811056496793_1_alg».proof.Defs
import proofs.«158515_j64811056496793_1_alg».proof.Proof.Gen.Kernel
import proofs.«158515_j64811056496793_1_alg».proof.Proof.Gen.Kernel.Skeleton
import proofs.«158515_j64811056496793_1_alg».proof.Proof.Gen.Kernel.Launch
import proofs.«158515_j64811056496793_1_alg».proof.Proof.Gen.Kernel.Points
import proofs.«158515_j64811056496793_1_alg».proof.Proof.Gen.Kernel.Frame
import proofs.«158515_j64811056496793_1_alg».proof.Proof.Gen.KernelIdeal
import proofs.«158515_j64811056496793_1_alg».proof.Proof.Gen.KernelIdeal.Skeleton
import proofs.«158515_j64811056496793_1_alg».proof.Proof.Gen.KernelIdeal.Launch
import proofs.«158515_j64811056496793_1_alg».proof.Proof.Gen.KernelIdeal.Points
import proofs.«158515_j64811056496793_1_alg».proof.Proof.Gen.KernelIdeal.Frame
import proofs.«158515_j64811056496793_1_alg».proof.Proof.Gen.ReferenceIdeal
import proofs.«158515_j64811056496793_1_alg».proof.Proof.Gen.KernelIdeal.Value
import proofs.«158515_j64811056496793_1_alg».proof.Proof.Gen.ReferenceIdeal.Run
import proofs.«158515_j64811056496793_1_alg».proof.Proof.Gen.ReferenceIdeal.Read
import proofs.«158515_j64811056496793_1_alg».proof.Proof.Gen.Pre_finite_inputs
import proofs.«158515_j64811056496793_1_alg».proof.Proof.Final
import proofs.«158515_j64811056496793_1_alg».proof.Proof.KernelRow
import proofs.«158515_j64811056496793_1_alg».proof.Proof.RefRow
import Idealize.ShloMosaic.Adequacy
import Idealize.ShloMosaic.Init

noncomputable section

namespace Cert.Proof

open Idealize.ShloMosaic Idealize.SL.Sem

/-- The kernel as printed runs, faults nowhere and leaves its arguments as they were. -/
theorem frame_k : Cert.frame_Kernel := fun m ρ _ => Cert.Kernel.Gen.frame m ρ

/-- So does the idealized kernel. -/
theorem frame_ki : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- The payload fact in the form the block lemma takes it. -/
theorem payIsRow : Cert.KernelIdeal.Final.PayIsRow :=
  fun x0 x1 x2 x3 x4 x5 x6 x7 x8 x9 x10 x11 x12 x13 x14 x15 p q => Cert.KernelRow.pay_ix2 x0 x1 x2 x3 x4 x5 x6 x7 x8 x9 x10 x11 x12 x13 x14 x15 p q

/-- Run from memories that agree on the arguments, the idealized kernel's result array ends at the
    specification's whole-array function of the arguments (its 32 blocks, each the specification on its band
    of rows, cover the array), and the reference's at its result term, which is the same function. -/
theorem algebraic : Cert.algebraic_KernelIdeal_ReferenceIdeal := by
  intro m ρ m' ρ' _ hagree
  refine ⟨fun c => Cert.KernelIdeal.Final.Gm m c, ?_, ?_⟩
  · exact (θ_run Cert.KernelIdeal.defs _ _).mono
      (fun r h c => ⟨(h c).1.trans (Cert.KernelIdeal.Final.final16 m payIsRow c), (h c).2⟩)
      (Cert.KernelIdeal.Value.run_blocks (F := Ideal) m ρ)
  · refine (θ_run Cert.ReferenceIdeal.defs _ _).mono (fun _ h c => ⟨(h c).1.trans ?_, (h c).2⟩)
      (Cert.ReferenceIdeal.Value.run (F := Ideal) m' ρ')
    obtain ⟨e0, e1, e2, e3, e4, e5, e6, e7, e8, e9, e10, e11, e12, e13, e14, e15, e16, e17, e18, e19, e20, e21, e22, e23, e24, e25, e26, e27, e28, e29, e30, e31⟩ := hagree c
    rw [Cert.ReferenceIdeal.Read.val_main_v45_eq, Cert.RefRow.ref_eq_G, e0, e1, e6, e7, e12, e13, e18, e19, e24, e25, e26, e27, e28, e29, e30, e31]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
